-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S4x8x16 : Shape := ⟨3, ![4, 8, 16]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S4x8x16 : S_.BroadcastsInDim S4x8x16 (![] : Fin 0 → Fin S4x8x16.rank)
  reducesTo_S4x8x16_S_d0_1_2 : S4x8x16.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S32x64 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_v33

def fn {F : FTy → Type} [FloatOps F] (main_arg0 : FVec F S256x64 .f32) (main_arg1 : FVec F S4x8x16 .f32) (main_arg2 : FVec F S64x128 .f32) (main_arg3 : FVec F S64 .f32) (main_arg4 : FVec F S64x64 .f32) (main_arg5 : FVec F S64 .f32) (main_arg6 : FVec F S32x64 .f32) (main_arg7 : FVec F S32 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S4x8x16 .f32 := Host.absf main_arg1
  let main_cst_0 : FVec F S_ .f32 := constant S_ .f32 0x7F800000#32
  let main_v5 : FVec F S4x8x16 .f32 := broadcastInDim S4x8x16 ![] bcast_S_S4x8x16 main_cst_0
  let main_v6 : IVec S4x8x16 1 := cmpf .olt main_v4 main_v5
  let main_c_1 : IVec S_ 1 := constantI S_ 1 1#1
  let main_v7 : IVec S_ 1 := (fun x v => Host.reduce IntOp.andi x v reducesTo_S4x8x16_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S256x64 : Shape := ⟨2, ![256, 64]⟩
abbrev S4x8x16 : Shape := ⟨3, ![4, 8, 16]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S8 : Shape := ⟨1, ![8]⟩
abbrev S_ : Shape := ⟨0, ![]⟩
abbrev S8x8x8x8 : Shape := ⟨4, ![8, 8, 8, 8]⟩
abbrev S1x8x8x8x8 : Shape := ⟨5, ![1, 8, 8, 8, 8]⟩
abbrev S4x8x8x8x8 : Shape := ⟨5, ![4, 8, 8, 8, 8]⟩
abbrev S4 : Shape := ⟨1, ![4]⟩
abbrev S8x8x8x8x4 : Shape := ⟨5, ![8, 8, 8, 8, 4]⟩
abbrev S8x8x8x8x4x1 : Shape := ⟨6, ![8, 8, 8, 8, 4, 1]⟩
abbrev S8x8x8x8x4x2 : Shape := ⟨6, ![8, 8, 8, 8, 4, 2]⟩
abbrev S8x8x8x8x4x16 : Shape := ⟨6, ![8, 8, 8, 8, 4, 16]⟩
abbrev S4096x64 : Shape := ⟨2, ![4096, 64]⟩
abbrev S1x64 : Shape := ⟨2, ![1, 64]⟩
abbrev S1x32 : Shape := ⟨2, ![1, 32]⟩
abbrev S256x131072 : Shape := ⟨2, ![256, 131072]⟩
abbrev S128x64 : Shape := ⟨2, ![128, 64]⟩
abbrev S128x4096 : Shape := ⟨2, ![128, 4096]⟩
abbrev S1x1x64 : Shape := ⟨3, ![1, 1, 64]⟩
abbrev S128x1x64 : Shape := ⟨3, ![128, 1, 64]⟩
abbrev S1x128x64 : Shape := ⟨3, ![1, 128, 64]⟩
abbrev S128x128x64 : Shape := ⟨3, ![128, 128, 64]⟩
abbrev S16384x64 : Shape := ⟨2, ![16384, 64]⟩
abbrev S64x32 : Shape := ⟨2, ![64, 32]⟩
abbrev S16384x32 : Shape := ⟨2, ![16384, 32]⟩
abbrev S256x4096x32 : Shape := ⟨3, ![256, 4096, 32]⟩

abbrev nBuf : Space → Nat
  | .hbm => 80
  | .vmem => 13
  | .smem => 0
  | _ => 0

abbrev bufTy : (tb : Table) → Fin (tcTables nBuf tb) → BufTy
  | .hbm, ⟨0, _⟩ => ⟨S256x64, .f32⟩
  | .hbm, ⟨1, _⟩ => ⟨S4x8x16, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8x8x8x8, .i32⟩
  | .hbm, ⟨37, _⟩ => ⟨S8x8x8x8, .i32⟩
  | .hbm, ⟨38, _⟩ => ⟨S8x8x8x8, .i32⟩
  | .hbm, ⟨39, _⟩ => ⟨S8x8x8x8, .i32⟩
  | .hbm, ⟨40, _⟩ => ⟨S1x8x8x8x8, .i32⟩
  | .hbm, ⟨41, _⟩ => ⟨S1x8x8x8x8, .i32⟩
  | .hbm, ⟨42, _⟩ => ⟨S1x8x8x8x8, .i32⟩
  | .hbm, ⟨43, _⟩ => ⟨S1x8x8x8x8, .i32⟩
  | .hbm, ⟨44, _⟩ => ⟨S4x8x8x8x8, .i32⟩
  | .hbm, ⟨45, _⟩ => ⟨S4, .i32⟩
  | .hbm, ⟨46, _⟩ => ⟨S8x8x8x8x4, .i32⟩
  | .hbm, ⟨47, _⟩ => ⟨S_, .i32⟩
  | .hbm, ⟨48, _⟩ => ⟨S4, .i32⟩
  | .hbm, ⟨49, _⟩ => ⟨S4, .i1⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S4, .i32⟩
  | .hbm, ⟨54, _⟩ => ⟨S_, .i32⟩
  | .hbm, ⟨55, _⟩ => ⟨S8x8x8x8x4, .i32⟩
  | .hbm, ⟨56, _⟩ => ⟨S8x8x8x8x4, .i1⟩
  | .hbm, ⟨57, _⟩ => ⟨S_, .i32⟩
  | .hbm, ⟨58, _⟩ => ⟨S8x8x8x8x4, .i32⟩
  | .hbm, ⟨59, _⟩ => ⟨S8x8x8x8x4, .i32⟩
  | .hbm, ⟨60, _⟩ => ⟨S8x8x8x8x4, .i32⟩
  | .hbm, ⟨61, _⟩ => ⟨S8x8x8x8x4, .i32⟩
  | .hbm, ⟨62, _⟩ => ⟨S8x8x8x8x4x1, .i32⟩
  | .hbm, ⟨63, _⟩ => ⟨S8x8x8x8x4x1, .i32⟩
  | .hbm, ⟨64, _⟩ => ⟨S8x8x8x8x4x2, .i32⟩
  | .hbm, ⟨65, _⟩ => ⟨S8x8x8x8x4x16, .f32⟩
  | .hbm, ⟨66, _⟩ => ⟨S4096x64, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S1x64, .f32⟩
  | .hbm, ⟨71, _⟩ => ⟨S1x32, .f32⟩
  | .hbm, ⟨72, _⟩ => ⟨S4096x64, .bf16⟩
  | .hbm, ⟨73, _⟩ => ⟨S256x64, .bf16⟩
  | .hbm, ⟨74, _⟩ => ⟨S64x64, .bf16⟩
  | .hbm, ⟨75, _⟩ => ⟨S64x64, .bf16⟩
  | .hbm, ⟨76, _⟩ => ⟨S64x64, .bf16⟩
  | .hbm, ⟨77, _⟩ => ⟨S32x64, .bf16⟩
  | .hbm, ⟨78, _⟩ => ⟨S256x131072, .f32⟩
  | .hbm, ⟨79, _⟩ => ⟨S256x4096x32, .f32⟩
  | .local _ .vmem, ⟨0, _⟩ => ⟨S128x64, .bf16⟩
  | .local _ .vmem, ⟨1, _⟩ => ⟨S128x64, .bf16⟩
  | .local _ .vmem, ⟨2, _⟩ => ⟨S128x64, .bf16⟩
  | .local _ .vmem, ⟨3, _⟩ => ⟨S128x64, .bf16⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S32x64, .bf16⟩
  | .local _ .vmem, ⟨8, _⟩ => ⟨S1x64, .f32⟩
  | .local _ .vmem, ⟨9, _⟩ => ⟨S1x64, .f32⟩
  | .local _ .vmem, ⟨10, _⟩ => ⟨S1x32, .f32⟩
  | .local _ .vmem, ⟨11, _⟩ => ⟨S128x4096, .f32⟩
  | .local _ .vmem, ⟨12, _⟩ => ⟨S128x4096, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S8 : S_.BroadcastsInDim S8 (![] : Fin 0 → Fin S8.rank)
  bcast_S8_S8x8x8x8_0 : S8.BroadcastsInDim S8x8x8x8 (![0] : Fin 1 → Fin S8x8x8x8.rank)
  bcast_S8_S8x8x8x8_1 : S8.BroadcastsInDim S8x8x8x8 (![1] : Fin 1 → Fin S8x8x8x8.rank)
  bcast_S8_S8x8x8x8_2 : S8.BroadcastsInDim S8x8x8x8 (![2] : Fin 1 → Fin S8x8x8x8.rank)
  bcast_S8_S8x8x8x8_3 : S8.BroadcastsInDim S8x8x8x8 (![3] : Fin 1 → Fin S8x8x8x8.rank)
  bcast_S8x8x8x8_S1x8x8x8x8_1_2_3_4 : S8x8x8x8.BroadcastsInDim S1x8x8x8x8 (![1, 2, 3, 4] : Fin 4 → Fin S1x8x8x8x8.rank)
  concatenates_S1x8x8x8x8_S1x8x8x8x8_S1x8x8x8x8_S1x8x8x8x8_S4x8x8x8x8_d0 : Shape.Concatenates [S1x8x8x8x8, S1x8x8x8x8, S1x8x8x8x8, S1x8x8x8x8] S4x8x8x8x8 0
  transposes_S4x8x8x8x8_S8x8x8x8x4_4_3_2_1_0 : S4x8x8x8x8.Transposes [4, 3, 2, 1, 0] S8x8x8x8x4
  bcast_S_S4 : S_.BroadcastsInDim S4 (![] : Fin 0 → Fin S4.rank)
  bcast_S_S8x8x8x8x4 : S_.BroadcastsInDim S8x8x8x8x4 (![] : Fin 0 → Fin S8x8x8x8x4.rank)
  bcast_S4_S8x8x8x8x4_4 : S4.BroadcastsInDim S8x8x8x8x4 (![4] : Fin 1 → Fin S8x8x8x8x4.rank)
  bcast_S8x8x8x8x4_S8x8x8x8x4x1_0_1_2_3_4 : S8x8x8x8x4.BroadcastsInDim S8x8x8x8x4x1 (![0, 1, 2, 3, 4] : Fin 5 → Fin S8x8x8x8x4x1.rank)
  concatenates_S8x8x8x8x4x1_S8x8x8x8x4x1_S8x8x8x8x4x2_d5 : Shape.Concatenates [S8x8x8x8x4x1, S8x8x8x8x4x1] S8x8x8x8x4x2 5
  shapeCasts_S8x8x8x8x4x16_S4096x64 : S8x8x8x8x4x16.ShapeCasts S4096x64
  slices_S64x128_S64x64_0_0 : S64x128.Slices ![0, 0] S64x64
  slices_S64x128_S64x64_0_64 : S64x128.Slices ![0, 64] S64x64
  shapeCasts_S64_S1x64 : S64.ShapeCasts S1x64
  shapeCasts_S32_S1x32 : S32.ShapeCasts S1x32
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  broadcasts_S1x1x64_S128x128x64 : S1x1x64.Broadcasts S128x128x64
  shapeCasts_S128x128x64_S16384x64 : S128x128x64.ShapeCasts S16384x64
  broadcasts_S1x64_S16384x64 : S1x64.Broadcasts S16384x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S32x64_p1_0_S64x32 : S32x64.Transposes [1, 0] S64x32
  broadcasts_S1x32_S16384x32 : S1x32.Broadcasts S16384x32
  shapeCasts_S16384x32_S128x4096 : S16384x32.ShapeCasts S128x4096
  inb_S128x4096_S128x4096_0_0 : ∀ a, (![0, 0] : Fin 2 → Nat) a + S128x4096.size a ≤ S128x4096.size a
  h_S128x4096 : 0 < S128x4096.numel
  shapeCasts_S256x131072_S256x4096x32 : S256x131072.ShapeCasts S256x4096x32
  gather_S4x8x16_S8x8x8x8x4x2_S8x8x8x8x4x16_5_01_n_n_01_5_1116_wf : GatherDims.WF S4x8x16 S8x8x8x8x4x2 S8x8x8x8x4x16 [5] [0, 1] [] [0, 1] [] 5 ![1, 1, 16]
  dot_S128x64_S64x64_S128x64_1_0_0_1_n_n_wf : DotDims.WF S128x64 S64x64 S128x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S4096x64.size a
  hwx0_0 : ∀ i : grid0.Coords, EltTy.bits .bf16 = 32 ∨ (Rect.block (s := S4096x64) S128x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S256x64.size a
  hwx0_1 : ∀ i : grid0.Coords, EltTy.bits .bf16 = 32 ∨ (Rect.block (s := S256x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .bf16 = 32 ∨ (Rect.block (s := S32x64) S32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S256x131072.size a
  hwx0_9 : ∀ i : grid0.Coords, EltTy.bits .f32 = 32 ∨ (Rect.block (s := S256x131072) S128x4096.size (cc0_transform_9 i) (hinb0_9 i)).WholeWords (EltTy.packing .f32)

variable [Facts₀]

def gather_S4x8x16_S8x8x8x8x4x2_S8x8x8x8x4x16_5_01_n_n_01_5_1116 : GatherDims S4x8x16 S8x8x8x8x4x2 S8x8x8x8x4x16 where
  offsetDims := [5]
  collapsedSliceDims := [0, 1]
  operandBatchingDims := []
  startIndicesBatchingDims := []
  startIndexMap := [0, 1]
  indexVectorDim := 5
  sliceSizes := ![1, 1, 16]
  wf := gather_S4x8x16_S8x8x8x8x4x2_S8x8x8x8x4x16_5_01_n_n_01_5_1116_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf

abbrev win0_0 : Pipeline.Window sig grid0 :=
  Pipeline.Window.ofSpec (Memref.whole main_v52) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v58) S128x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x64 : Shape := ⟨2, ![256, 64]⟩
abbrev S4x8x16 : Shape := ⟨3, ![4, 8, 16]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S8 : Shape := ⟨1, ![8]⟩
abbrev S_ : Shape := ⟨0, ![]⟩
abbrev S8x8x8x8 : Shape := ⟨4, ![8, 8, 8, 8]⟩
abbrev S1x8x8x8x8 : Shape := ⟨5, ![1, 8, 8, 8, 8]⟩
abbrev S4x8x8x8x8 : Shape := ⟨5, ![4, 8, 8, 8, 8]⟩
abbrev S4 : Shape := ⟨1, ![4]⟩
abbrev S8x8x8x8x4 : Shape := ⟨5, ![8, 8, 8, 8, 4]⟩
abbrev S8x8x8x8x4x1 : Shape := ⟨6, ![8, 8, 8, 8, 4, 1]⟩
abbrev S8x8x8x8x4x2 : Shape := ⟨6, ![8, 8, 8, 8, 4, 2]⟩
abbrev S8x8x8x8x4x16 : Shape := ⟨6, ![8, 8, 8, 8, 4, 16]⟩
abbrev S4096x64 : Shape := ⟨2, ![4096, 64]⟩
abbrev S256x1x64 : Shape := ⟨3, ![256, 1, 64]⟩
abbrev S256x4096x64 : Shape := ⟨3, ![256, 4096, 64]⟩
abbrev S1x4096x64 : Shape := ⟨3, ![1, 4096, 64]⟩
abbrev S256x4096x128 : Shape := ⟨3, ![256, 4096, 128]⟩
abbrev S1x1x64 : Shape := ⟨3, ![1, 1, 64]⟩
abbrev S256x4096x32 : Shape := ⟨3, ![256, 4096, 32]⟩
abbrev S1x1x32 : Shape := ⟨3, ![1, 1, 32]⟩

abbrev nBuf : Space → Nat
  | .hbm => 90
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S4x8x16, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8x8x8x8, .i32⟩
  | .hbm, ⟨37, _⟩ => ⟨S8x8x8x8, .i32⟩
  | .hbm, ⟨38, _⟩ => ⟨S8x8x8x8, .i32⟩
  | .hbm, ⟨39, _⟩ => ⟨S8x8x8x8, .i32⟩
  | .hbm, ⟨40, _⟩ => ⟨S1x8x8x8x8, .i32⟩
  | .hbm, ⟨41, _⟩ => ⟨S1x8x8x8x8, .i32⟩
  | .hbm, ⟨42, _⟩ => ⟨S1x8x8x8x8, .i32⟩
  | .hbm, ⟨43, _⟩ => ⟨S1x8x8x8x8, .i32⟩
  | .hbm, ⟨44, _⟩ => ⟨S4x8x8x8x8, .i32⟩
  | .hbm, ⟨45, _⟩ => ⟨S4, .i32⟩
  | .hbm, ⟨46, _⟩ => ⟨S8x8x8x8x4, .i32⟩
  | .hbm, ⟨47, _⟩ => ⟨S_, .i32⟩
  | .hbm, ⟨48, _⟩ => ⟨S4, .i32⟩
  | .hbm, ⟨49, _⟩ => ⟨S4, .i1⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S4, .i32⟩
  | .hbm, ⟨54, _⟩ => ⟨S_, .i32⟩
  | .hbm, ⟨55, _⟩ => ⟨S8x8x8x8x4, .i32⟩
  | .hbm, ⟨56, _⟩ => ⟨S8x8x8x8x4, .i1⟩
  | .hbm, ⟨57, _⟩ => ⟨S_, .i32⟩
  | .hbm, ⟨58, _⟩ => ⟨S8x8x8x8x4, .i32⟩
  | .hbm, ⟨59, _⟩ => ⟨S8x8x8x8x4, .i32⟩
  | .hbm, ⟨60, _⟩ => ⟨S8x8x8x8x4, .i32⟩
  | .hbm, ⟨61, _⟩ => ⟨S8x8x8x8x4, .i32⟩
  | .hbm, ⟨62, _⟩ => ⟨S8x8x8x8x4x1, .i32⟩
  | .hbm, ⟨63, _⟩ => ⟨S8x8x8x8x4x1, .i32⟩
  | .hbm, ⟨64, _⟩ => ⟨S8x8x8x8x4x2, .i32⟩
  | .hbm, ⟨65, _⟩ => ⟨S8x8x8x8x4x16, .f32⟩
  | .hbm, ⟨66, _⟩ => ⟨S4096x64, .f32⟩
  | .hbm, ⟨67, _⟩ => ⟨S256x1x64, .f32⟩
  | .hbm, ⟨68, _⟩ => ⟨S256x4096x64, .f32⟩
  | .hbm, ⟨69, _⟩ => ⟨S1x4096x64, .f32⟩
  | .hbm, ⟨70, _⟩ => ⟨S256x4096x64, .f32⟩
  | .hbm, ⟨71, _⟩ => ⟨S256x4096x128, .f32⟩
  | .hbm, ⟨72, _⟩ => ⟨S256x4096x64, .f32⟩
  | .hbm, ⟨73, _⟩ => ⟨S1x1x64, .f32⟩
  | .hbm, ⟨74, _⟩ => ⟨S256x4096x64, .f32⟩
  | .hbm, ⟨75, _⟩ => ⟨S256x4096x64, .f32⟩
  | .hbm, ⟨76, _⟩ => ⟨S_, .f32⟩
  | .hbm, ⟨77, _⟩ => ⟨S256x4096x64, .f32⟩
  | .hbm, ⟨78, _⟩ => ⟨S256x4096x64, .f32⟩
  | .hbm, ⟨79, _⟩ => ⟨S256x4096x64, .f32⟩
  | .hbm, ⟨80, _⟩ => ⟨S1x1x64, .f32⟩
  | .hbm, ⟨81, _⟩ => ⟨S256x4096x64, .f32⟩
  | .hbm, ⟨82, _⟩ => ⟨S256x4096x64, .f32⟩
  | .hbm, ⟨83, _⟩ => ⟨S_, .f32⟩
  | .hbm, ⟨84, _⟩ => ⟨S256x4096x64, .f32⟩
  | .hbm, ⟨85, _⟩ => ⟨S256x4096x64, .f32⟩
  | .hbm, ⟨86, _⟩ => ⟨S256x4096x32, .f32⟩
  | .hbm, ⟨87, _⟩ => ⟨S1x1x32, .f32⟩
  | .hbm, ⟨88, _⟩ => ⟨S256x4096x32, .f32⟩
  | .hbm, ⟨89, _⟩ => ⟨S256x4096x32, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x8x8x8_0 : S8.BroadcastsInDim S8x8x8x8 (![0] : Fin 1 → Fin S8x8x8x8.rank)
  bcast_S8_S8x8x8x8_1 : S8.BroadcastsInDim S8x8x8x8 (![1] : Fin 1 → Fin S8x8x8x8.rank)
  bcast_S8_S8x8x8x8_2 : S8.BroadcastsInDim S8x8x8x8 (![2] : Fin 1 → Fin S8x8x8x8.rank)
  bcast_S8_S8x8x8x8_3 : S8.BroadcastsInDim S8x8x8x8 (![3] : Fin 1 → Fin S8x8x8x8.rank)
  bcast_S8x8x8x8_S1x8x8x8x8_1_2_3_4 : S8x8x8x8.BroadcastsInDim S1x8x8x8x8 (![1, 2, 3, 4] : Fin 4 → Fin S1x8x8x8x8.rank)
  concatenates_S1x8x8x8x8_S1x8x8x8x8_S1x8x8x8x8_S1x8x8x8x8_S4x8x8x8x8_d0 : Shape.Concatenates [S1x8x8x8x8, S1x8x8x8x8, S1x8x8x8x8, S1x8x8x8x8] S4x8x8x8x8 0
  transposes_S4x8x8x8x8_S8x8x8x8x4_4_3_2_1_0 : S4x8x8x8x8.Transposes [4, 3, 2, 1, 0] S8x8x8x8x4
  bcast_S_S4 : S_.BroadcastsInDim S4 (![] : Fin 0 → Fin S4.rank)
  bcast_S_S8x8x8x8x4 : S_.BroadcastsInDim S8x8x8x8x4 (![] : Fin 0 → Fin S8x8x8x8x4.rank)
  bcast_S4_S8x8x8x8x4_4 : S4.BroadcastsInDim S8x8x8x8x4 (![4] : Fin 1 → Fin S8x8x8x8x4.rank)
  bcast_S8x8x8x8x4_S8x8x8x8x4x1_0_1_2_3_4 : S8x8x8x8x4.BroadcastsInDim S8x8x8x8x4x1 (![0, 1, 2, 3, 4] : Fin 5 → Fin S8x8x8x8x4x1.rank)
  concatenates_S8x8x8x8x4x1_S8x8x8x8x4x1_S8x8x8x8x4x2_d5 : Shape.Concatenates [S8x8x8x8x4x1, S8x8x8x8x4x1] S8x8x8x8x4x2 5
  shapeCasts_S8x8x8x8x4x16_S4096x64 : S8x8x8x8x4x16.ShapeCasts S4096x64
  bcast_S256x64_S256x1x64_0_2 : S256x64.BroadcastsInDim S256x1x64 (![0, 2] : Fin 2 → Fin S256x1x64.rank)
  bcast_S256x1x64_S256x4096x64_0_1_2 : S256x1x64.BroadcastsInDim S256x4096x64 (![0, 1, 2] : Fin 3 → Fin S256x4096x64.rank)
  bcast_S4096x64_S1x4096x64_1_2 : S4096x64.BroadcastsInDim S1x4096x64 (![1, 2] : Fin 2 → Fin S1x4096x64.rank)
  bcast_S1x4096x64_S256x4096x64_0_1_2 : S1x4096x64.BroadcastsInDim S256x4096x64 (![0, 1, 2] : Fin 3 → Fin S256x4096x64.rank)
  concatenates_S256x4096x64_S256x4096x64_S256x4096x128_d2 : Shape.Concatenates [S256x4096x64, S256x4096x64] S256x4096x128 2
  bcast_S64_S1x1x64_2 : S64.BroadcastsInDim S1x1x64 (![2] : Fin 1 → Fin S1x1x64.rank)
  bcast_S1x1x64_S256x4096x64_0_1_2 : S1x1x64.BroadcastsInDim S256x4096x64 (![0, 1, 2] : Fin 3 → Fin S256x4096x64.rank)
  bcast_S_S256x4096x64 : S_.BroadcastsInDim S256x4096x64 (![] : Fin 0 → Fin S256x4096x64.rank)
  bcast_S32_S1x1x32_2 : S32.BroadcastsInDim S1x1x32 (![2] : Fin 1 → Fin S1x1x32.rank)
  bcast_S1x1x32_S256x4096x32_0_1_2 : S1x1x32.BroadcastsInDim S256x4096x32 (![0, 1, 2] : Fin 3 → Fin S256x4096x32.rank)
  gather_S4x8x16_S8x8x8x8x4x2_S8x8x8x8x4x16_5_01_n_n_01_5_1116_wf : GatherDims.WF S4x8x16 S8x8x8x8x4x2 S8x8x8x8x4x16 [5] [0, 1] [] [0, 1] [] 5 ![1, 1, 16]
  dot_S256x4096x128_S64x128_S256x4096x64_2_1_01_0_n_n_wf : DotDims.WF S256x4096x128 S64x128 S256x4096x64 [2] [1] [0, 1] [0] [] []
  dot_S256x4096x64_S64x64_S256x4096x64_2_1_01_0_n_n_wf : DotDims.WF S256x4096x64 S64x64 S256x4096x64 [2] [1] [0, 1] [0] [] []
  dot_S256x4096x64_S32x64_S256x4096x32_2_1_01_0_n_n_wf : DotDims.WF S256x4096x64 S32x64 S256x4096x32 [2] [1] [0, 1] [0] [] []

variable [Facts₀]

def gather_S4x8x16_S8x8x8x8x4x2_S8x8x8x8x4x16_5_01_n_n_01_5_1116 : GatherDims S4x8x16 S8x8x8x8x4x2 S8x8x8x8x4x16 where
  offsetDims := [5]
  collapsedSliceDims := [0, 1]
  operandBatchingDims := []
  startIndicesBatchingDims := []
  startIndexMap := [0, 1]
  indexVectorDim := 5
  sliceSizes := ![1, 1, 16]
  wf := gather_S4x8x16_S8x8x8x8x4x2_S8x8x8x8x4x16_5_01_n_n_01_5_1116_wf
def dot_S256x4096x128_S64x128_S256x4096x64_2_1_01_0_n_n : DotDims S256x4096x128 S64x128 S256x4096x64 where
  lhsContracting := [2]
  rhsContracting := [1]
  lhsNonContracting := [0, 1]
  rhsNonContracting := [0]
  lhsBatch := []
  rhsBatch := []
  wf := dot_S256x4096x128_S64x128_S256x4096x64_2_1_01_0_n_n_wf
def dot_S256x4096x64_S64x64_S256x4096x64_2_1_01_0_n_n : DotDims S256x4096x64 S64x64 S256x4096x64 where
  lhsContracting := [2]
  rhsContracting := [1]
  lhsNonContracting := [0, 1]
  rhsNonContracting := [0]
  lhsBatch := []
  rhsBatch := []
  wf := dot_S256x4096x64_S64x64_S256x4096x64_2_1_01_0_n_n_wf
def dot_S256x4096x64_S32x64_S256x4096x32_2_1_01_0_n_n : DotDims S256x4096x64 S32x64 S256x4096x32 where
  lhsContracting := [2]
  rhsContracting := [1]
  lhsNonContracting := [0, 1]
  rhsNonContracting := [0]
  lhsBatch := []
  rhsBatch := []
  wf := dot_S256x4096x64_S32x64_S256x4096x32_2_1_01_0_n_n_wf

class Facts : Prop extends Facts₀ where

variable [Facts]
-- ==== Proof.KernelHost.lean ====
/-
  The host side of `Kernel`'s one pallas_call, at any float instance.

  @main is seventy host operations (the gather that builds the table of all 8⁴ = 4096 combinations of one region
  vector per level, the two halves of the first layer's weights, the bias rows, the casts), then the pallas_call, then
  one reshape of its result. Here: what each buffer holds when the region is entered, as the host operations' fold
  over the launched memory; that @main is those operations, the region, and the reshape; that the reshape touches
  no array the pipeline stages; that no host operation writes an argument, so each argument is found, and left, as
  launched; each window's block of its array at a grid point; and that an input window's staging buffer holds its
  block at every point, whether the point fetches it or the block index has not moved since an earlier point did.
-/
import proofs.«112589_j25271587570218_2_alg».proof.Proof.Gen.Kernel.Launch
import proofs.«112589_j25271587570218_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launched memory after the host operations before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

set_option maxHeartbeats 4000000 in
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

set_option maxHeartbeats 4000000 in
/-- @main is the host operations before the region, the region, and the reshape after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The reshape after the region touches only the pipeline's arrays and buffers that bypass the pipeline. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem suffix_allocs : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- And it writes only its own result, which no window stages. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are found, and left, as launched -/

/-- No host operation before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and no window stages it: it ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- No host operation before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and no window stages it: it ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- No host operation before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and no window stages it: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host operation before the region writes argument 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and no window stages it: it ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host operation before the region writes argument 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4, and no window stages it: it ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host operation before the region writes argument 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5, and no window stages it: it ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-- No host operation before the region writes argument 6: the region finds it as launched. -/
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6, and no window stages it: it ends as launched. -/
theorem exit_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_arg6 m c

/-- No host operation before the region writes argument 7: the region finds it as launched. -/
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7, and no window stages it: it ends as launched. -/
theorem exit_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data over the
    region-entry arrays whose body leaves the input blocks in place: at a point that fetches the window the fetch put
    it there, and at a point that does not the block index has not moved since the fetch. -/

theorem found_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem found_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem found_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem found_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem found_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem found_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem found_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem found_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame post from a frame run -/

/-- A run that ends with every buffer outside the pipeline's arrays as the reshape leaves it ends with every
    argument as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (exit_arg0 m dats c),
    ((h c).2 main_arg1 (Pipeline.mem_restRefs_of main_arg1 (by decide) (by decide))).trans (exit_arg1 m dats c),
    ((h c).2 main_arg2 (Pipeline.mem_restRefs_of main_arg2 (by decide) (by decide))).trans (exit_arg2 m dats c),
    ((h c).2 main_arg3 (Pipeline.mem_restRefs_of main_arg3 (by decide) (by decide))).trans (exit_arg3 m dats c),
    ((h c).2 main_arg4 (Pipeline.mem_restRefs_of main_arg4 (by decide) (by decide))).trans (exit_arg4 m dats c),
    ((h c).2 main_arg5 (Pipeline.mem_restRefs_of main_arg5 (by decide) (by decide))).trans (exit_arg5 m dats c),
    ((h c).2 main_arg6 (Pipeline.mem_restRefs_of main_arg6 (by decide) (by decide))).trans (exit_arg6 m dats c),
    ((h c).2 main_arg7 (Pipeline.mem_restRefs_of main_arg7 (by decide) (by decide))).trans (exit_arg7 m dats c)⟩) h

end Cert.Kernel.Fr

end
-- ==== Proof.KernelBody.lean ====
/-
  The body of the one pallas_call of `Kernel`, at any float instance.

  At a grid point the body is handed nine input blocks — a 128-row tile of the gathered combination table (128 × 64),
  a 128-row tile of the features (128 × 64), the two 64 × 64 halves of the first layer's weights, the second layer's
  64 × 64 weights, the third layer's 32 × 64 weights and the three bias rows — and one 128 × 4096 output block. It loads
  every input block whole, computes one value from them (the three-layer perceptron of every (feature row, combination
  row) pair of the two tiles, laid out with the 32 outputs of a pair contiguous in a row) and stores it over the whole
  output block. So after the body the output block is that one value, whatever the block held before, and the input
  blocks are as they were.
-/
import proofs.«112589_j25271587570218_2_alg».proof.Proof.Gen.Kernel.Launch
import proofs.«112589_j25271587570218_2_alg».proof.Proof.Gen.Kernel.Skeleton
import proofs.«112589_j25271587570218_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-block rectangles the body loads and stores through -/

abbrev rTile : Rect S128x64 := Rect.unit (s := S128x64) ![0, 0] S128x64.size inb_S128x64_S128x64_0_0
abbrev rSquare : Rect S64x64 := Rect.unit (s := S64x64) ![0, 0] S64x64.size inb_S64x64_S64x64_0_0
abbrev rThird : Rect S32x64 := Rect.unit (s := S32x64) ![0, 0] S32x64.size inb_S32x64_S32x64_0_0
abbrev rBias : Rect S1x64 := Rect.unit (s := S1x64) ![0, 0] S1x64.size inb_S1x64_S1x64_0_0
abbrev rBias3 : Rect S1x32 := Rect.unit (s := S1x32) ![0, 0] S1x32.size inb_S1x32_S1x32_0_0
abbrev rOut : Rect S128x4096 := Rect.unit (s := S128x4096) ![0, 0] S128x4096.size inb_S128x4096_S128x4096_0_0

/-! ## What the body leaves in the output block -/

/-- The one value the body stores, as a function of the nine input blocks: the perceptron's third layer (`k0_pay1`)
    of the third layer's weights as loaded (`k0_pay2`), the second layer's pre-activation (`k0_pay3`, which holds the
    first layer inside it), the zero block the second rectifier compares with (`k0_pay4`) and the third bias row. -/
def outValue (x0 x1 : Vec F S128x64 .bf16) (x2 x3 x4 : Vec F S64x64 .bf16) (x5 : Vec F S32x64 .bf16) (x6 x7 : Vec F S1x64 .f32) (x8 : Vec F S1x32 .f32) : Vec F S128x4096 .f32 :=
  k0_pay1 (k0_pay2 (View.ld x5 rThird))
    (k0_pay3 (View.ld x0 rTile) (View.ld x1 rTile) (View.ld x2 rSquare) (View.ld x3 rSquare) (View.ld x4 rSquare) (View.ld x6 rBias) (View.ld x7 rBias))
    (k0_pay4 (F := F)) (View.ld x8 rBias3)

/-- The output block after the body: its single store, read back as a whole block. -/
def outBlock (x0 x1 : Vec F S128x64 .bf16) (x2 x3 x4 : Vec F S64x64 .bf16) (x5 : Vec F S32x64 .bf16) (x6 x7 : Vec F S1x64 .f32) (x8 : Vec F S1x32 .f32) : Vec F S128x4096 .f32 :=
  View.canon [⟨rOut, outValue x0 x1 x2 x3 x4 x5 x6 x7 x8⟩]

/-- The single store's rectangle is the whole block, so every index of the block lies in it. -/
theorem cover_out (p0 : Vec F S128x4096 .f32) (y : S128x4096.Idx) :
    ∃ pc ∈ ([⟨rOut, p0⟩] : List (View.Piece (Elt F) S128x4096 .f32)), y ∈ pc.1.set :=
  View.cover_of_tiled [⟨rOut, p0⟩] S128x4096.size (by rfl) y

/-! ## The body's triple -/

set_option maxHeartbeats 4000000 in
/-- Run on whole staging buffers, the inputs' holding `x0 … x8` and the output's anything, the body ends with the
    inputs' as they were and the output's at `outBlock` of the inputs. -/
theorem sound_kernel (c : Dev nD) (E : Set ℕ) (i : grid0.Coords) (arg2 : Memref sig .tc .vmem S128x64 .bf16) (harg2 : arg2.IsWhole) (arg3 : Memref sig .tc .vmem S128x64 .bf16) (harg3 : arg3.IsWhole) (arg4 : Memref sig .tc .vmem S64x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S32x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x32 .f32) (harg10 : arg10.IsWhole) (arg11 : Memref sig .tc .vmem S128x4096 .f32) (harg11 : arg11.IsWhole)
    (x0 x1 : Vec F S128x64 .bf16) (x2 x3 x4 : Vec F S64x64 .bf16) (x5 : Vec F S32x64 .bf16) (x6 x7 : Vec F S1x64 .f32) (x8 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlock x0 x1 x2 x3 x4 x5 x6 x7 x8)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

end Cert.Kernel.Fr

end
-- ==== Proof.KernelRun.lean ====
/-
  The frame run of `Kernel`, at any float instance.

  The proof data of the one pallas_call: the pipeline's arrays are what the region finds; after the body at grid
  point `t` every input window's staging buffer still holds its block and the output window's holds the body's one
  value of the nine input blocks at `t`; the body uses nothing else. With it, the body's triple discharges the body
  obligation at every point, the library's frame run around a region gives every weakly fair execution of @main a
  terminating, fault-free run whose final memory has each of the pipeline's arrays at what the write-backs made of
  it and every other buffer as the closing reshape leaves it, and from that the arguments end as launched.
-/
import proofs.«112589_j25271587570218_2_alg».proof.Proof.KernelHost
import proofs.«112589_j25271587570218_2_alg».proof.Proof.KernelBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's staging buffer at its
    block and the output's at the body's value of the input blocks; the invariant only what the body never touches;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_in0 (c : Dev nD) (t : Fin cfg0.N) (d) : (dats m 0 c).before 0 t d = iblk m c 0 t :=
  found_in0 m (dats m 0 c) (A_eq m c 0) (after_in0 m c) t d
theorem before_in1 (c : Dev nD) (t : Fin cfg0.N) (d) : (dats m 0 c).before 1 t d = iblk m c 1 t :=
  found_in1 m (dats m 0 c) (A_eq m c 1) (after_in1 m c) t d
theorem before_in2 (c : Dev nD) (t : Fin cfg0.N) (d) : (dats m 0 c).before 2 t d = iblk m c 2 t :=
  found_in2 m (dats m 0 c) (A_eq m c 2) (after_in2 m c) t d
theorem before_in3 (c : Dev nD) (t : Fin cfg0.N) (d) : (dats m 0 c).before 3 t d = iblk m c 3 t :=
  found_in3 m (dats m 0 c) (A_eq m c 3) (after_in3 m c) t d
theorem before_in4 (c : Dev nD) (t : Fin cfg0.N) (d) : (dats m 0 c).before 4 t d = iblk m c 4 t :=
  found_in4 m (dats m 0 c) (A_eq m c 4) (after_in4 m c) t d
theorem before_in5 (c : Dev nD) (t : Fin cfg0.N) (d) : (dats m 0 c).before 5 t d = iblk m c 5 t :=
  found_in5 m (dats m 0 c) (A_eq m c 5) (after_in5 m c) t d
theorem before_in6 (c : Dev nD) (t : Fin cfg0.N) (d) : (dats m 0 c).before 6 t d = iblk m c 6 t :=
  found_in6 m (dats m 0 c) (A_eq m c 6) (after_in6 m c) t d
theorem before_in7 (c : Dev nD) (t : Fin cfg0.N) (d) : (dats m 0 c).before 7 t d = iblk m c 7 t :=
  found_in7 m (dats m 0 c) (A_eq m c 7) (after_in7 m c) t d
theorem before_in8 (c : Dev nD) (t : Fin cfg0.N) (d) : (dats m 0 c).before 8 t d = iblk m c 8 t :=
  found_in8 m (dats m 0 c) (A_eq m c 8) (after_in8 m c) t d

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- At any point the inputs' staging buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, each of the pipeline's arrays ending at what
    the proof data's write-backs make of it and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_sub) (hfresh := suffix_allocs) (hkeep := suffix_keeps)
    (hmain := main_around m Variants.none) (hA := A_eq m) (hΦ := fun _ _ => rfl)

/-- The program runs to the end, faults nowhere and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Fr

end
-- ==== Proof.KernelIdealHost.lean ====
/-
  The host side of `KernelIdeal`'s one pallas_call, at any float instance.

  @main is seventy host operations (the gather that builds the table of all 8⁴ = 4096 combinations of one region
  vector per level, the two halves of the first layer's weights, the bias rows, the casts), then the pallas_call, then
  one reshape of its result. Here: what each buffer holds when the region is entered, as the host operations' fold
  over the launched memory; that @main is those operations, the region, and the reshape; that the reshape touches
  no array the pipeline stages; that no host operation writes an argument, so each argument is found, and left, as
  launched; each window's block of its array at a grid point; and that an input window's staging buffer holds its
  block at every point, whether the point fetches it or the block index has not moved since an earlier point did.
-/
import proofs.«112589_j25271587570218_2_alg».proof.Proof.Gen.KernelIdeal.Launch
import proofs.«112589_j25271587570218_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launched memory after the host operations before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

set_option maxHeartbeats 4000000 in
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

set_option maxHeartbeats 4000000 in
/-- @main is the host operations before the region, the region, and the reshape after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The reshape after the region touches only the pipeline's arrays and buffers that bypass the pipeline. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem suffix_allocs : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- And it writes only its own result, which no window stages. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are found, and left, as launched -/

/-- No host operation before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and no window stages it: it ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- No host operation before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and no window stages it: it ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- No host operation before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and no window stages it: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host operation before the region writes argument 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and no window stages it: it ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host operation before the region writes argument 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4, and no window stages it: it ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host operation before the region writes argument 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5, and no window stages it: it ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-- No host operation before the region writes argument 6: the region finds it as launched. -/
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6, and no window stages it: it ends as launched. -/
theorem exit_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_arg6 m c

/-- No host operation before the region writes argument 7: the region finds it as launched. -/
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7, and no window stages it: it ends as launched. -/
theorem exit_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data over the
    region-entry arrays whose body leaves the input blocks in place: at a point that fetches the window the fetch put
    it there, and at a point that does not the block index has not moved since the fetch. -/

theorem found_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem found_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem found_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem found_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem found_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem found_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem found_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem found_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame post from a frame run -/

/-- A run that ends with every buffer outside the pipeline's arrays as the reshape leaves it ends with every
    argument as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (exit_arg0 m dats c),
    ((h c).2 main_arg1 (Pipeline.mem_restRefs_of main_arg1 (by decide) (by decide))).trans (exit_arg1 m dats c),
    ((h c).2 main_arg2 (Pipeline.mem_restRefs_of main_arg2 (by decide) (by decide))).trans (exit_arg2 m dats c),
    ((h c).2 main_arg3 (Pipeline.mem_restRefs_of main_arg3 (by decide) (by decide))).trans (exit_arg3 m dats c),
    ((h c).2 main_arg4 (Pipeline.mem_restRefs_of main_arg4 (by decide) (by decide))).trans (exit_arg4 m dats c),
    ((h c).2 main_arg5 (Pipeline.mem_restRefs_of main_arg5 (by decide) (by decide))).trans (exit_arg5 m dats c),
    ((h c).2 main_arg6 (Pipeline.mem_restRefs_of main_arg6 (by decide) (by decide))).trans (exit_arg6 m dats c),
    ((h c).2 main_arg7 (Pipeline.mem_restRefs_of main_arg7 (by decide) (by decide))).trans (exit_arg7 m dats c)⟩) h

end Cert.KernelIdeal.Fr

end
-- ==== Proof.KernelIdealBody.lean ====
/-
  The body of the one pallas_call of `KernelIdeal`, at any float instance.

  At a grid point the body is handed nine input blocks — a 128-row tile of the gathered combination table (128 × 64),
  a 128-row tile of the features (128 × 64), the two 64 × 64 halves of the first layer's weights, the second layer's
  64 × 64 weights, the third layer's 32 × 64 weights and the three bias rows — and one 128 × 4096 output block. It loads
  every input block whole, computes one value from them (the three-layer perceptron of every (feature row, combination
  row) pair of the two tiles, laid out with the 32 outputs of a pair contiguous in a row) and stores it over the whole
  output block. So after the body the output block is that one value, whatever the block held before, and the input
  blocks are as they were.
-/
import proofs.«112589_j25271587570218_2_alg».proof.Proof.Gen.KernelIdeal.Launch
import proofs.«112589_j25271587570218_2_alg».proof.Proof.Gen.KernelIdeal.Skeleton
import proofs.«112589_j25271587570218_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-block rectangles the body loads and stores through -/

abbrev rTile : Rect S128x64 := Rect.unit (s := S128x64) ![0, 0] S128x64.size inb_S128x64_S128x64_0_0
abbrev rSquare : Rect S64x64 := Rect.unit (s := S64x64) ![0, 0] S64x64.size inb_S64x64_S64x64_0_0
abbrev rThird : Rect S32x64 := Rect.unit (s := S32x64) ![0, 0] S32x64.size inb_S32x64_S32x64_0_0
abbrev rBias : Rect S1x64 := Rect.unit (s := S1x64) ![0, 0] S1x64.size inb_S1x64_S1x64_0_0
abbrev rBias3 : Rect S1x32 := Rect.unit (s := S1x32) ![0, 0] S1x32.size inb_S1x32_S1x32_0_0
abbrev rOut : Rect S128x4096 := Rect.unit (s := S128x4096) ![0, 0] S128x4096.size inb_S128x4096_S128x4096_0_0

/-! ## What the body leaves in the output block -/

/-- The one value the body stores, as a function of the nine input blocks: the perceptron's third layer (`k0_pay1`)
    of the third layer's weights as loaded (`k0_pay2`), the second layer's pre-activation (`k0_pay3`, which holds the
    first layer inside it), the zero block the second rectifier compares with (`k0_pay4`) and the third bias row. -/
def outValue (x0 x1 : Vec F S128x64 .bf16) (x2 x3 x4 : Vec F S64x64 .bf16) (x5 : Vec F S32x64 .bf16) (x6 x7 : Vec F S1x64 .f32) (x8 : Vec F S1x32 .f32) : Vec F S128x4096 .f32 :=
  k0_pay1 (k0_pay2 (View.ld x5 rThird))
    (k0_pay3 (View.ld x0 rTile) (View.ld x1 rTile) (View.ld x2 rSquare) (View.ld x3 rSquare) (View.ld x4 rSquare) (View.ld x6 rBias) (View.ld x7 rBias))
    (k0_pay4 (F := F)) (View.ld x8 rBias3)

/-- The output block after the body: its single store, read back as a whole block. -/
def outBlock (x0 x1 : Vec F S128x64 .bf16) (x2 x3 x4 : Vec F S64x64 .bf16) (x5 : Vec F S32x64 .bf16) (x6 x7 : Vec F S1x64 .f32) (x8 : Vec F S1x32 .f32) : Vec F S128x4096 .f32 :=
  View.canon [⟨rOut, outValue x0 x1 x2 x3 x4 x5 x6 x7 x8⟩]

/-- The single store's rectangle is the whole block, so every index of the block lies in it. -/
theorem cover_out (p0 : Vec F S128x4096 .f32) (y : S128x4096.Idx) :
    ∃ pc ∈ ([⟨rOut, p0⟩] : List (View.Piece (Elt F) S128x4096 .f32)), y ∈ pc.1.set :=
  View.cover_of_tiled [⟨rOut, p0⟩] S128x4096.size (by rfl) y

/-! ## The body's triple -/

set_option maxHeartbeats 4000000 in
/-- Run on whole staging buffers, the inputs' holding `x0 … x8` and the output's anything, the body ends with the
    inputs' as they were and the output's at `outBlock` of the inputs. -/
theorem sound_kernel (c : Dev nD) (E : Set ℕ) (i : grid0.Coords) (arg2 : Memref sig .tc .vmem S128x64 .bf16) (harg2 : arg2.IsWhole) (arg3 : Memref sig .tc .vmem S128x64 .bf16) (harg3 : arg3.IsWhole) (arg4 : Memref sig .tc .vmem S64x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S32x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x32 .f32) (harg10 : arg10.IsWhole) (arg11 : Memref sig .tc .vmem S128x4096 .f32) (harg11 : arg11.IsWhole)
    (x0 x1 : Vec F S128x64 .bf16) (x2 x3 x4 : Vec F S64x64 .bf16) (x5 : Vec F S32x64 .bf16) (x6 x7 : Vec F S1x64 .f32) (x8 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlock x0 x1 x2 x3 x4 x5 x6 x7 x8)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

end Cert.KernelIdeal.Fr

end
-- ==== Proof.KernelIdealRun.lean ====
/-
  The frame run of `KernelIdeal`, at any float instance.

  The proof data of the one pallas_call: the pipeline's arrays are what the region finds; after the body at grid
  point `t` every input window's staging buffer still holds its block and the output window's holds the body's one
  value of the nine input blocks at `t`; the body uses nothing else. With it, the body's triple discharges the body
  obligation at every point, the library's frame run around a region gives every weakly fair execution of @main a
  terminating, fault-free run whose final memory has each of the pipeline's arrays at what the write-backs made of
  it and every other buffer as the closing reshape leaves it, and from that the arguments end as launched.
-/
import proofs.«112589_j25271587570218_2_alg».proof.Proof.KernelIdealHost
import proofs.«112589_j25271587570218_2_alg».proof.Proof.KernelIdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's staging buffer at its
    block and the output's at the body's value of the input blocks; the invariant only what the body never touches;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_in0 (c : Dev nD) (t : Fin cfg0.N) (d) : (dats m 0 c).before 0 t d = iblk m c 0 t :=
  found_in0 m (dats m 0 c) (A_eq m c 0) (after_in0 m c) t d
theorem before_in1 (c : Dev nD) (t : Fin cfg0.N) (d) : (dats m 0 c).before 1 t d = iblk m c 1 t :=
  found_in1 m (dats m 0 c) (A_eq m c 1) (after_in1 m c) t d
theorem before_in2 (c : Dev nD) (t : Fin cfg0.N) (d) : (dats m 0 c).before 2 t d = iblk m c 2 t :=
  found_in2 m (dats m 0 c) (A_eq m c 2) (after_in2 m c) t d
theorem before_in3 (c : Dev nD) (t : Fin cfg0.N) (d) : (dats m 0 c).before 3 t d = iblk m c 3 t :=
  found_in3 m (dats m 0 c) (A_eq m c 3) (after_in3 m c) t d
theorem before_in4 (c : Dev nD) (t : Fin cfg0.N) (d) : (dats m 0 c).before 4 t d = iblk m c 4 t :=
  found_in4 m (dats m 0 c) (A_eq m c 4) (after_in4 m c) t d
theorem before_in5 (c : Dev nD) (t : Fin cfg0.N) (d) : (dats m 0 c).before 5 t d = iblk m c 5 t :=
  found_in5 m (dats m 0 c) (A_eq m c 5) (after_in5 m c) t d
theorem before_in6 (c : Dev nD) (t : Fin cfg0.N) (d) : (dats m 0 c).before 6 t d = iblk m c 6 t :=
  found_in6 m (dats m 0 c) (A_eq m c 6) (after_in6 m c) t d
theorem before_in7 (c : Dev nD) (t : Fin cfg0.N) (d) : (dats m 0 c).before 7 t d = iblk m c 7 t :=
  found_in7 m (dats m 0 c) (A_eq m c 7) (after_in7 m c) t d
theorem before_in8 (c : Dev nD) (t : Fin cfg0.N) (d) : (dats m 0 c).before 8 t d = iblk m c 8 t :=
  found_in8 m (dats m 0 c) (A_eq m c 8) (after_in8 m c) t d

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- At any point the inputs' staging buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, each of the pipeline's arrays ending at what
    the proof data's write-backs make of it and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_sub) (hfresh := suffix_allocs) (hkeep := suffix_keeps)
    (hmain := main_around m Variants.none) (hA := A_eq m) (hΦ := fun _ _ => rfl)

/-- The program runs to the end, faults nowhere and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Fr

end
-- ==== Proof.Spec.lean ====
/-
  The function both programs compute, row by row.

  For one feature row `p` (64 numbers) and one combination row `v` (64 numbers) the network's output `o` is

      Σ_g max (Σ_h max ((Σ_j p j · wp h j + Σ_i v i · wv h i) + b1 h) 0 · w2 g h + b2 g) 0 · w3 o g + b3 o

  over the extended reals, where `wv` and `wp` are the halves of the first layer's weights that meet the combination
  row and the feature row. The zero the rectifiers compare with is kept as the float word both programs spell.
  One law joins the two programs' first layers: a sum over 128 terms is the sum over its last 64 plus the sum over
  its first 64. Addition of extended reals is commutative and associative, so the law needs no finiteness.
-/
import Idealize.ShloMosaic.PureOps.Ideal.Laws
import Idealize.ShloMosaic.Lib.ValueIdx
import Mathlib.Algebra.BigOperators.Fin

noncomputable section

namespace Cert.Spec

open Idealize.ShloMosaic

/-- The zero the rectifiers compare with, as the float word. -/
abbrev zeroWord : EReal := Ideal.ofBits .f32 0x00000000#32

/-- The three-layer network on one (feature row, combination row) pair, output `o`. -/
def mlp (p v : Fin 64 → EReal) (wp wv : Fin 64 → Fin 64 → EReal) (b1 : Fin 64 → EReal)
    (w2 : Fin 64 → Fin 64 → EReal) (b2 : Fin 64 → EReal) (w3 : Fin 32 → Fin 64 → EReal) (b3 : Fin 32 → EReal)
    (o : Fin 32) : EReal :=
  (∑ g : Fin 64, max ((∑ h : Fin 64,
      max (((∑ j : Fin 64, p j * wp h j) + ∑ i : Fin 64, v i * wv h i) + b1 h) zeroWord * w2 g h) + b2 g) zeroWord * w3 o g)
    + b3 o

/-- The network's output depends on its row functions only through their values. -/
theorem mlp_congr {p p' v v' : Fin 64 → EReal} {wp wp' wv wv' : Fin 64 → Fin 64 → EReal} {b1 b1' : Fin 64 → EReal}
    {w2 w2' : Fin 64 → Fin 64 → EReal} {b2 b2' : Fin 64 → EReal} {w3 w3' : Fin 32 → Fin 64 → EReal} {b3 b3' : Fin 32 → EReal}
    (o : Fin 32) (hp : ∀ j, p j = p' j) (hv : ∀ i, v i = v' i) (hwp : ∀ h j, wp h j = wp' h j) (hwv : ∀ h i, wv h i = wv' h i)
    (hb1 : ∀ h, b1 h = b1' h) (hw2 : ∀ g h, w2 g h = w2' g h) (hb2 : ∀ g, b2 g = b2' g) (hw3 : ∀ o g, w3 o g = w3' o g)
    (hb3 : ∀ o, b3 o = b3' o) :
    mlp p v wp wv b1 w2 b2 w3 b3 o = mlp p' v' wp' wv' b1' w2' b2' w3' b3' o := by
  obtain rfl : p = p' := funext hp
  obtain rfl : v = v' := funext hv
  obtain rfl : wp = wp' := funext fun h => funext (hwp h)
  obtain rfl : wv = wv' := funext fun h => funext (hwv h)
  obtain rfl : b1 = b1' := funext hb1
  obtain rfl : w2 = w2' := funext fun g => funext (hw2 g)
  obtain rfl : b2 = b2' := funext hb2
  obtain rfl : w3 = w3' := funext fun o => funext (hw3 o)
  obtain rfl : b3 = b3' := funext hb3
  rfl

/-- A sum over 128 terms is the sum over its last 64 plus the sum over its first 64. -/
theorem sum_halves (f : Fin 128 → EReal) :
    ∑ k : Fin 128, f k = (∑ j : Fin 64, f ⟨64 + j.val, by omega⟩) + ∑ i : Fin 64, f ⟨i.val, by omega⟩ := by
  have h := Fin.sum_univ_add (M := EReal) (a := 64) (b := 64) f
  rw [add_comm]
  exact h

end Cert.Spec

end
-- ==== Proof.Layout.lean ====
/-
  Layout operations read at an index given by coordinates, for the shapes this kernel's body uses: a unit axis put in
  the middle of a matrix, a stack of matrices flattened to one tall matrix, a tall matrix whose rows are regrouped
  into longer rows, and a broadcast along the first, the second, or the first two axes of a rank-three array. Each is
  the library's general lemma with the row-major or per-axis arithmetic carried out.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[128, 128, 64]` stack flattened to `[16384, 64]` reads, at row `p · 128 + q`, the operand at `(p, q, ·)`. -/
theorem shapeCast_stack_apply (x : (⟨3, ![128, 128, 64]⟩ : Shape).Idx → α)
    (h : (⟨3, ![128, 128, 64]⟩ : Shape).ShapeCasts ⟨2, ![16384, 64]⟩) (p q : Fin 128) (k : Fin 64) :
    shapeCast ⟨2, ![16384, 64]⟩ x h (ix2 (⟨p.val * 128 + q.val, by omega⟩ : Fin 16384) k) = x (ix3 p q k) :=
  shapeCast_apply x h _ _ (by
    rw [Shape.rowMajor_val_three, Shape.rowMajor_val_two]
    rfl)

/-- A `[16384, 32]` matrix regrouped into `[128, 4096]` reads, at `(p, r)`, the operand at row `p · 128 + r / 32`,
    column `r % 32`. -/
theorem shapeCast_regroup_apply (x : (⟨2, ![16384, 32]⟩ : Shape).Idx → α)
    (h : (⟨2, ![16384, 32]⟩ : Shape).ShapeCasts ⟨2, ![128, 4096]⟩) (p : Fin 128) (r : Fin 4096) :
    shapeCast ⟨2, ![128, 4096]⟩ x h (ix2 p r)
      = x (ix2 (⟨p.val * 128 + r.val / 32, by omega⟩ : Fin 16384) (⟨r.val % 32, by omega⟩ : Fin 32)) :=
  shapeCast_apply x h _ _ (by
    rw [Shape.rowMajor_val_two, Shape.rowMajor_val_two]
    show (p.val * 128 + r.val / 32) * 32 + r.val % 32 = p.val * 4096 + r.val
    omega)

/-- An `[a, 1, c]` array broadcast to `[a, b, c]` reads, at `(i, j, k)`, the operand at `(i, 0, k)`. -/
theorem broadcastTo_a1c_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Layout
-- ==== Proof.BlockValue.lean ====
/-
  The body's value at an index, over the extended reals.

  Entry `(p, r)` of the 128 × 4096 block the body stores is the network's output `r % 32` on the feature tile's row
  `p` and the combination tile's row `r / 32`: the body forms all 128 × 128 pairs of the two tiles' rows, pair
  `(p, q)` as row `p · 128 + q` of a tall matrix, runs the three layers on the tall matrix and regroups the
  resulting 16384 × 32 matrix so that a feature row's 128 × 32 outputs lie in one row of 4096. Each matrix product,
  from a zero accumulator, is the plain sum over the contracted axis; the weights enter transposed, so each product
  pairs a row of activations with a row of weights; every change of float format is the identity.
-/
import proofs.«112589_j25271587570218_2_alg».proof.Proof.KernelIdealBody
import proofs.«112589_j25271587570218_2_alg».proof.Proof.Spec
import proofs.«112589_j25271587570218_2_alg».proof.Proof.Layout
import Idealize.ShloMosaic.PureOps.Ideal.Laws
import Idealize.ShloMosaic.Lib.ValueLayout

set_option maxRecDepth 16384

noncomputable section

namespace Cert.KernelIdeal.BlockValue

open Idealize.ShloMosaic Idealize.ShloMosaic.ValueIdx
open Cert.KernelIdeal Cert.KernelIdeal.Gen Cert.KernelIdeal.Fr Cert.Layout

/-! ## The three matrix products as sums -/

theorem product_tile_lhs0 (i : S128x64.Idx) (q : dot_S128x64_S64x64_S128x64_1_0_0_1_n_n.contr.Idx) : (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem product_tile_lhs1 (i : S128x64.Idx) (q : dot_S128x64_S64x64_S128x64_1_0_0_1_n_n.contr.Idx) : (dot_S128x64_S64x64_S128x64_1_0_0_1_n_n.lhsIdx i q 1).val = (q ⟨0, by decide⟩).val :=
  dot_S128x64_S64x64_S128x64_1_0_0_1_n_n.lhsIdx_val_of_single rfl i q
theorem product_tile_rhs0 (i : S128x64.Idx) (q : dot_S128x64_S64x64_S128x64_1_0_0_1_n_n.contr.Idx) : (dot_S128x64_S64x64_S128x64_1_0_0_1_n_n.rhsIdx i q 0).val = (q ⟨0, by decide⟩).val :=
  dot_S128x64_S64x64_S128x64_1_0_0_1_n_n.rhsIdx_val_of_single rfl i q
theorem product_tile_rhs1 (i : S128x64.Idx) (q : dot_S128x64_S64x64_S128x64_1_0_0_1_n_n.contr.Idx) : (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl
/-- A 128 × 64 tile times a 64 × 64 matrix, from zero: entry `(p, q)` is the sum over `k` of the products. -/
theorem product_tile {φ₁ φ₂ : FTy} (l : FVec Ideal S128x64 φ₁) (r : FVec Ideal S64x64 φ₂) (p : Fin 128) (q : Fin 64) :
    matmul dot_S128x64_S64x64_S128x64_1_0_0_1_n_n none l r (constant (F := Ideal) S128x64 .f32 0x00000000#32) (ix2 p q)
      = ∑ k : Fin 64, l (ix2 p k) * r (ix2 k q) := by
  simp only [matmul]
  rw [Ideal.matmul_constant_zero_apply, ← Equiv.sum_comp (contrEquiv1 dot_S128x64_S64x64_S128x64_1_0_0_1_n_n 64 rfl rfl).symm]
  refine Finset.sum_congr rfl fun k _ => ?_
  have hk := contrEquiv1_symm_val dot_S128x64_S64x64_S128x64_1_0_0_1_n_n 64 rfl rfl k
  have el : dot_S128x64_S64x64_S128x64_1_0_0_1_n_n.lhsIdx (ix2 p q) ((contrEquiv1 dot_S128x64_S64x64_S128x64_1_0_0_1_n_n 64 rfl rfl).symm k) = ix2 p k := funext fun a => Fin.ext (by
    match a with
    | ⟨0, _⟩ => exact product_tile_lhs0 _ _
    | ⟨1, _⟩ => exact (product_tile_lhs1 _ _).trans hk)
  have er : dot_S128x64_S64x64_S128x64_1_0_0_1_n_n.rhsIdx (ix2 p q) ((contrEquiv1 dot_S128x64_S64x64_S128x64_1_0_0_1_n_n 64 rfl rfl).symm k) = ix2 k q := funext fun a => Fin.ext (by
    match a with
    | ⟨0, _⟩ => exact (product_tile_rhs0 _ _).trans hk
    | ⟨1, _⟩ => exact product_tile_rhs1 _ _)
  rw [el, er]

theorem product_tall_lhs0 (i : S16384x64.Idx) (q : dot_S16384x64_S64x64_S16384x64_1_0_0_1_n_n.contr.Idx) : (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem product_tall_lhs1 (i : S16384x64.Idx) (q : dot_S16384x64_S64x64_S16384x64_1_0_0_1_n_n.contr.Idx) : (dot_S16384x64_S64x64_S16384x64_1_0_0_1_n_n.lhsIdx i q 1).val = (q ⟨0, by decide⟩).val :=
  dot_S16384x64_S64x64_S16384x64_1_0_0_1_n_n.lhsIdx_val_of_single rfl i q
theorem product_tall_rhs0 (i : S16384x64.Idx) (q : dot_S16384x64_S64x64_S16384x64_1_0_0_1_n_n.contr.Idx) : (dot_S16384x64_S64x64_S16384x64_1_0_0_1_n_n.rhsIdx i q 0).val = (q ⟨0, by decide⟩).val :=
  dot_S16384x64_S64x64_S16384x64_1_0_0_1_n_n.rhsIdx_val_of_single rfl i q
theorem product_tall_rhs1 (i : S16384x64.Idx) (q : dot_S16384x64_S64x64_S16384x64_1_0_0_1_n_n.contr.Idx) : (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl
/-- The tall 16384 × 64 matrix times a 64 × 64 matrix, from zero. -/
theorem product_tall {φ₁ φ₂ : FTy} (l : FVec Ideal S16384x64 φ₁) (r : FVec Ideal S64x64 φ₂) (p : Fin 16384) (q : Fin 64) :
    matmul dot_S16384x64_S64x64_S16384x64_1_0_0_1_n_n none l r (constant (F := Ideal) S16384x64 .f32 0x00000000#32) (ix2 p q)
      = ∑ k : Fin 64, l (ix2 p k) * r (ix2 k q) := by
  simp only [matmul]
  rw [Ideal.matmul_constant_zero_apply, ← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 p q) ((contrEquiv1 dot_S16384x64_S64x64_S16384x64_1_0_0_1_n_n 64 rfl rfl).symm k) = ix2 p k := funext fun a => Fin.ext (by
    match a with
    | ⟨0, _⟩ => exact product_tall_lhs0 _ _
    | ⟨1, _⟩ => exact (product_tall_lhs1 _ _).trans hk)
  have er : dot_S16384x64_S64x64_S16384x64_1_0_0_1_n_n.rhsIdx (ix2 p q) ((contrEquiv1 dot_S16384x64_S64x64_S16384x64_1_0_0_1_n_n 64 rfl rfl).symm k) = ix2 k q := funext fun a => Fin.ext (by
    match a with
    | ⟨0, _⟩ => exact (product_tall_rhs0 _ _).trans hk
    | ⟨1, _⟩ => exact product_tall_rhs1 _ _)
  rw [el, er]

theorem product_out_lhs0 (i : S16384x32.Idx) (q : dot_S16384x64_S64x32_S16384x32_1_0_0_1_n_n.contr.Idx) : (dot_S16384x64_S64x32_S16384x32_1_0_0_1_n_n.lhsIdx i q 0).val = (i 0).val := by
  unfold DotDims.lhsIdx
  rw [dif_neg (show ¬(0 : Fin S16384x64.rank) ∈ dot_S16384x64_S64x32_S16384x32_1_0_0_1_n_n.lhsBatch by decide), dif_pos (show (0 : Fin S16384x64.rank) ∈ dot_S16384x64_S64x32_S16384x32_1_0_0_1_n_n.lhsNonContracting by decide)]
  rfl
theorem product_out_lhs1 (i : S16384x32.Idx) (q : dot_S16384x64_S64x32_S16384x32_1_0_0_1_n_n.contr.Idx) : (dot_S16384x64_S64x32_S16384x32_1_0_0_1_n_n.lhsIdx i q 1).val = (q ⟨0, by decide⟩).val :=
  dot_S16384x64_S64x32_S16384x32_1_0_0_1_n_n.lhsIdx_val_of_single rfl i q
theorem product_out_rhs0 (i : S16384x32.Idx) (q : dot_S16384x64_S64x32_S16384x32_1_0_0_1_n_n.contr.Idx) : (dot_S16384x64_S64x32_S16384x32_1_0_0_1_n_n.rhsIdx i q 0).val = (q ⟨0, by decide⟩).val :=
  dot_S16384x64_S64x32_S16384x32_1_0_0_1_n_n.rhsIdx_val_of_single rfl i q
theorem product_out_rhs1 (i : S16384x32.Idx) (q : dot_S16384x64_S64x32_S16384x32_1_0_0_1_n_n.contr.Idx) : (dot_S16384x64_S64x32_S16384x32_1_0_0_1_n_n.rhsIdx i q 1).val = (i 1).val := by
  unfold DotDims.rhsIdx
  rw [dif_neg (show ¬(1 : Fin S64x32.rank) ∈ dot_S16384x64_S64x32_S16384x32_1_0_0_1_n_n.rhsBatch by decide), dif_pos (show (1 : Fin S64x32.rank) ∈ dot_S16384x64_S64x32_S16384x32_1_0_0_1_n_n.rhsNonContracting by decide)]
  rfl
/-- The tall 16384 × 64 matrix times a 64 × 32 matrix, from zero. -/
theorem product_out {φ₁ φ₂ : FTy} (l : FVec Ideal S16384x64 φ₁) (r : FVec Ideal S64x32 φ₂) (p : Fin 16384) (q : Fin 32) :
    matmul dot_S16384x64_S64x32_S16384x32_1_0_0_1_n_n none l r (constant (F := Ideal) S16384x32 .f32 0x00000000#32) (ix2 p q)
      = ∑ k : Fin 64, l (ix2 p k) * r (ix2 k q) := by
  simp only [matmul]
  rw [Ideal.matmul_constant_zero_apply, ← Equiv.sum_comp (contrEquiv1 dot_S16384x64_S64x32_S16384x32_1_0_0_1_n_n 64 rfl rfl).symm]
  refine Finset.sum_congr rfl fun k _ => ?_
  have hk := contrEquiv1_symm_val dot_S16384x64_S64x32_S16384x32_1_0_0_1_n_n 64 rfl rfl k
  have el : dot_S16384x64_S64x32_S16384x32_1_0_0_1_n_n.lhsIdx (ix2 p q) ((contrEquiv1 dot_S16384x64_S64x32_S16384x32_1_0_0_1_n_n 64 rfl rfl).symm k) = ix2 p k := funext fun a => Fin.ext (by
    match a with
    | ⟨0, _⟩ => exact product_out_lhs0 _ _
    | ⟨1, _⟩ => exact (product_out_lhs1 _ _).trans hk)
  have er : dot_S16384x64_S64x32_S16384x32_1_0_0_1_n_n.rhsIdx (ix2 p q) ((contrEquiv1 dot_S16384x64_S64x32_S16384x32_1_0_0_1_n_n 64 rfl rfl).symm k) = ix2 k q := funext fun a => Fin.ext (by
    match a with
    | ⟨0, _⟩ => exact (product_out_rhs0 _ _).trans hk
    | ⟨1, _⟩ => exact product_out_rhs1 _ _)
  rw [el, er]

/-! ## The weights enter transposed -/

/-- The transpose of a 64 × 64 weight matrix at `(k, h)` is the matrix at `(h, k)`. -/
theorem transpose_square {α : Type} (x : S64x64.Idx → α) (k h : Fin 64) :
    transpose S64x64 [1, 0] x transposes_S64x64_p1_0_S64x64 (ix2 k h) = x (ix2 h k) :=
  transpose_ix2_apply x _ k h

/-- The transpose of the 32 × 64 weight matrix at `(k, o)` is the matrix at `(o, k)`. -/
theorem transpose_third {α : Type} (x : S32x64.Idx → α) (k : Fin 64) (o : Fin 32) :
    transpose S64x32 [1, 0] x transposes_S32x64_p1_0_S64x32 (ix2 k o) = x (ix2 o k) :=
  transpose_ix2_apply x _ k o

/-- The whole-block rectangles start at the origin. -/
theorem origin2 : (![0, 0] : Fin 2 → Nat) = fun _ => 0 := funext fun a => by fin_cases a <;> rfl

/-- The transposed 64 × 64 weights, as a function of the index: the coordinates swapped. -/
theorem flip_square {α : Type} (x : S64x64.Idx → α) :
    transpose S64x64 [1, 0] x transposes_S64x64_p1_0_S64x64 = fun j => x (ix2 (j 1) (j 0)) :=
  funext fun j => by
    obtain ⟨a, b, rfl⟩ : ∃ (a : Fin 64) (b : Fin 64), j = ix2 a b := ⟨j 0, j 1, eq_ix2 j⟩
    exact transpose_square x a b

/-- The transposed 32 × 64 weights, as a function of the index: the coordinates swapped. -/
theorem flip_third {α : Type} (x : S32x64.Idx → α) :
    transpose S64x32 [1, 0] x transposes_S32x64_p1_0_S64x32 = fun j => x (ix2 (j 1) (j 0)) :=
  funext fun j => by
    obtain ⟨a, b, rfl⟩ : ∃ (a : Fin 64) (b : Fin 32), j = ix2 a b := ⟨j 0, j 1, eq_ix2 j⟩
    exact transpose_third x a b

/-! ## The second layer's pre-activation on the tall matrix -/

/-- Row `p · 128 + q`, column `g` of the second layer's pre-activation: the second layer applied to the rectified
    first layer of the feature tile's row `p` and the combination tile's row `q`. -/
theorem second_layer (v0 v2 : Vec Ideal S128x64 .bf16) (v4 v6 v8 : Vec Ideal S64x64 .bf16) (v16 v30 : Vec Ideal S1x64 .f32)
    (p q : Fin 128) (g : Fin 64) :
    k0_pay3 (F := Ideal) v0 v2 v4 v6 v8 v16 v30 (ix2 (⟨p.val * 128 + q.val, by omega⟩ : Fin 16384) g)
      = (∑ h : Fin 64, max (((∑ j : Fin 64, v2 (ix2 p j) * v6 (ix2 h j)) + ∑ i : Fin 64, v0 (ix2 q i) * v4 (ix2 h i))
            + v16 (ix2 (0 : Fin 1) h)) Spec.zeroWord * v8 (ix2 g h)) + v30 (ix2 (0 : Fin 1) g) := by
  unfold k0_pay3
  dsimp only
  simp only [shapeCast_self]
  rw [flip_square v6, flip_square v4, flip_square v8]
  simp only [addf_apply, maximumf_apply, truncf_apply, broadcast_apply, product_tall, product_tile,
    shapeCast_self, shapeCast_stack_apply, broadcastTo_a1c_apply, broadcastTo_1bc_apply, broadcastTo_11c_apply,
    shapeCast_ab_a1b_apply, shapeCast_ab_1ab_apply, broadcastTo_1b_ab_apply]
  rfl

/-! ## The third layer and the regrouping -/

/-- Entry `(p, r)` of the stored value: the third layer on row `p · 128 + r / 32` of the rectified second layer,
    output `r % 32`. -/
theorem third_layer (w : FVec Ideal S32x64 .bf16) (a zz : FVec Ideal S16384x64 .f32) (bb : Vec Ideal S1x32 .f32)
    (p : Fin 128) (r : Fin 4096) :
    k0_pay1 (F := Ideal) w a zz bb (ix2 p r)
      = (∑ g : Fin 64, max (a (ix2 (⟨p.val * 128 + r.val / 32, by omega⟩ : Fin 16384) g))
            (zz (ix2 (⟨p.val * 128 + r.val / 32, by omega⟩ : Fin 16384) g)) * w (ix2 (⟨r.val % 32, by omega⟩ : Fin 32) g))
          + bb (ix2 (0 : Fin 1) (⟨r.val % 32, by omega⟩ : Fin 32)) := by
  unfold k0_pay1
  dsimp only
  simp only [shapeCast_self]
  rw [flip_third w]
  simp only [shapeCast_regroup_apply, addf_apply, maximumf_apply, truncf_apply, product_out,
    shapeCast_self, broadcastTo_1b_ab_apply]

/-! ## The body's value -/

/-- Entry `(p, r)` of the block the body stores is the network's output `r % 32` on the feature tile's row `p` and
    the combination tile's row `r / 32`. -/
theorem outValue_apply (x0 x1 : Vec Ideal S128x64 .bf16) (x2 x3 x4 : Vec Ideal S64x64 .bf16) (x5 : Vec Ideal S32x64 .bf16)
    (x6 x7 : Vec Ideal S1x64 .f32) (x8 : Vec Ideal S1x32 .f32) (p : Fin 128) (r : Fin 4096) :
    outValue (F := Ideal) x0 x1 x2 x3 x4 x5 x6 x7 x8 (ix2 p r)
      = Spec.mlp (fun j => x1 (ix2 p j)) (fun i => x0 (ix2 (⟨r.val / 32, by omega⟩ : Fin 128) i))
          (fun h j => x3 (ix2 h j)) (fun h i => x2 (ix2 h i)) (fun h => x6 (ix2 (0 : Fin 1) h))
          (fun g h => x4 (ix2 g h)) (fun g => x7 (ix2 (0 : Fin 1) g))
          (fun o g => x5 (ix2 o g)) (fun o => x8 (ix2 (0 : Fin 1) o)) (⟨r.val % 32, by omega⟩ : Fin 32) := by
  unfold outValue
  simp only [View.ld_unit_zero (S := S128x64) origin2, View.ld_unit_zero (S := S64x64) origin2,
    View.ld_unit_zero (S := S32x64) origin2, View.ld_unit_zero (S := S1x64) origin2, View.ld_unit_zero (S := S1x32) origin2]
  rw [third_layer]
  have row : (⟨p.val * 128 + r.val / 32, by omega⟩ : Fin 16384) = ⟨p.val * 128 + (⟨r.val / 32, by omega⟩ : Fin 128).val, by omega⟩ := rfl
  simp only [row, second_layer]
  unfold Spec.mlp k0_pay2 k0_pay4
  simp only [shapeCast_self, broadcast_apply]
  rfl

end Cert.KernelIdeal.BlockValue

end
-- ==== Proof.EntryArrays.lean ====
/-
  What the pallas_call's operand arrays hold when the region is entered, over the extended reals, as functions of
  the program's arguments: the features and the weights after a change of float format (the identity on extended
  reals), the first layer's weights cut into its first 64 and its last 64 columns, and each bias vector as a
  one-row matrix. Each is read off the fold of the host operations before the region.
-/
import proofs.«112589_j25271587570218_2_alg».proof.Proof.KernelIdealHost
import Idealize.ShloMosaic.PureOps.Ideal.Laws
import Idealize.ShloMosaic.Lib.StableHlo.Run
import Idealize.ShloMosaic.Lib.ValueLayout

set_option maxRecDepth 16384

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen Cert.KernelIdeal.Fr

variable (m : (ℓ : Loc nD τ sig) → Buf (Elt Ideal) ℓ) (c : Dev nD)

/-! ## The arrays, as the host operations' terms -/

set_option maxHeartbeats 4000000 in
theorem features_eq : (V m c main_v53 : FVec Ideal S256x64 .bf16) = truncf (F := Ideal) .bf16 (m ((c : Thread nD τ).loc main_arg0) : FVec Ideal S256x64 .f32) bitsLt_bf16_f32 := by
  show StableHlo.after hostOps0 (fun b => m (c, b)) (Proc.devRef .tc main_v53) = _
  after_results_simp <;> rfl

set_option maxHeartbeats 4000000 in
theorem w1_table_half_eq : (V m c main_v54 : FVec Ideal S64x64 .bf16)
    = truncf (F := Ideal) .bf16 (extractStridedSlice S64x64 ![0, 0] (m ((c : Thread nD τ).loc main_arg2) : FVec Ideal S64x128 .f32) slices_S64x128_S64x64_0_0 : FVec Ideal S64x64 .f32) bitsLt_bf16_f32 := by
  show StableHlo.after hostOps0 (fun b => m (c, b)) (Proc.devRef .tc main_v54) = _
  after_results_simp <;> rfl

set_option maxHeartbeats 4000000 in
theorem w1_feature_half_eq : (V m c main_v55 : FVec Ideal S64x64 .bf16)
    = truncf (F := Ideal) .bf16 (extractStridedSlice S64x64 ![0, 64] (m ((c : Thread nD τ).loc main_arg2) : FVec Ideal S64x128 .f32) slices_S64x128_S64x64_0_64 : FVec Ideal S64x64 .f32) bitsLt_bf16_f32 := by
  show StableHlo.after hostOps0 (fun b => m (c, b)) (Proc.devRef .tc main_v55) = _
  after_results_simp <;> rfl

set_option maxHeartbeats 4000000 in
theorem w2_eq : (V m c main_v56 : FVec Ideal S64x64 .bf16) = truncf (F := Ideal) .bf16 (m ((c : Thread nD τ).loc main_arg4) : FVec Ideal S64x64 .f32) bitsLt_bf16_f32 := by
  show StableHlo.after hostOps0 (fun b => m (c, b)) (Proc.devRef .tc main_v56) = _
  after_results_simp <;> rfl

set_option maxHeartbeats 4000000 in
theorem w3_eq : (V m c main_v57 : FVec Ideal S32x64 .bf16) = truncf (F := Ideal) .bf16 (m ((c : Thread nD τ).loc main_arg6) : FVec Ideal S32x64 .f32) bitsLt_bf16_f32 := by
  show StableHlo.after hostOps0 (fun b => m (c, b)) (Proc.devRef .tc main_v57) = _
  after_results_simp <;> rfl

set_option maxHeartbeats 4000000 in
theorem b1_eq : (V m c main_v49 : S1x64.Idx → EReal) = shapeCast S1x64 (m ((c : Thread nD τ).loc main_arg3)) shapeCasts_S64_S1x64 := by
  show StableHlo.after hostOps0 (fun b => m (c, b)) (Proc.devRef .tc main_v49) = _
  after_results_simp <;> rfl

set_option maxHeartbeats 4000000 in
theorem b2_eq : (V m c main_v50 : S1x64.Idx → EReal) = shapeCast S1x64 (m ((c : Thread nD τ).loc main_arg5)) shapeCasts_S64_S1x64 := by
  show StableHlo.after hostOps0 (fun b => m (c, b)) (Proc.devRef .tc main_v50) = _
  after_results_simp <;> rfl

set_option maxHeartbeats 4000000 in
theorem b3_eq : (V m c main_v51 : S1x32.Idx → EReal) = shapeCast S1x32 (m ((c : Thread nD τ).loc main_arg7)) shapeCasts_S32_S1x32 := by
  show StableHlo.after hostOps0 (fun b => m (c, b)) (Proc.devRef .tc main_v51) = _
  after_results_simp <;> rfl

/-! ## The same at an index -/

theorem features_apply (b : Fin 256) (j : Fin 64) :
    (V m c main_v53 : S256x64.Idx → EReal) (ix2 b j) = m ((c : Thread nD τ).loc main_arg0) (ix2 b j) := by
  rw [features_eq]; rfl

theorem w1_table_half_apply (h i : Fin 64) :
    (V m c main_v54 : S64x64.Idx → EReal) (ix2 h i) = m ((c : Thread nD τ).loc main_arg2) (ix2 h (⟨i.val, by omega⟩ : Fin 128)) := by
  rw [w1_table_half_eq]
  show extractStridedSlice S64x64 ![0, 0] (m ((c : Thread nD τ).loc main_arg2) : FVec Ideal S64x128 .f32) slices_S64x128_S64x64_0_0 (ix2 h i) = _
  exact extractStridedSlice_apply _ _ _ _ _ fun a => match a with
    | ⟨0, _⟩ => (Nat.zero_add _).symm
    | ⟨1, _⟩ => (Nat.zero_add _).symm

theorem w1_feature_half_apply (h j : Fin 64) :
    (V m c main_v55 : S64x64.Idx → EReal) (ix2 h j) = m ((c : Thread nD τ).loc main_arg2) (ix2 h (⟨64 + j.val, by omega⟩ : Fin 128)) := by
  rw [w1_feature_half_eq]
  show extractStridedSlice S64x64 ![0, 64] (m ((c : Thread nD τ).loc main_arg2) : FVec Ideal S64x128 .f32) slices_S64x128_S64x64_0_64 (ix2 h j) = _
  exact extractStridedSlice_apply _ _ _ _ _ fun a => match a with
    | ⟨0, _⟩ => (Nat.zero_add _).symm
    | ⟨1, _⟩ => rfl

theorem w2_apply (g h : Fin 64) :
    (V m c main_v56 : S64x64.Idx → EReal) (ix2 g h) = m ((c : Thread nD τ).loc main_arg4) (ix2 g h) := by
  rw [w2_eq]; rfl

theorem w3_apply (o : Fin 32) (g : Fin 64) :
    (V m c main_v57 : S32x64.Idx → EReal) (ix2 o g) = m ((c : Thread nD τ).loc main_arg6) (ix2 o g) := by
  rw [w3_eq]; rfl

theorem b1_apply (h : Fin 64) :
    (V m c main_v49 : S1x64.Idx → EReal) (ix2 (0 : Fin 1) h) = m ((c : Thread nD τ).loc main_arg3) (ix1 h) := by
  rw [b1_eq]; exact shapeCast_a_1a_apply _ _ _ _

theorem b2_apply (g : Fin 64) :
    (V m c main_v50 : S1x64.Idx → EReal) (ix2 (0 : Fin 1) g) = m ((c : Thread nD τ).loc main_arg5) (ix1 g) := by
  rw [b2_eq]; exact shapeCast_a_1a_apply _ _ _ _

theorem b3_apply (o : Fin 32) :
    (V m c main_v51 : S1x32.Idx → EReal) (ix2 (0 : Fin 1) o) = m ((c : Thread nD τ).loc main_arg7) (ix1 o) := by
  rw [b3_eq]; exact shapeCast_a_1a_apply _ _ _ _

end Cert.KernelIdeal.Entry

end
-- ==== Proof.KernelValue.lean ====
/-
  The pallas_call's result array, and the program's result, as one function of the arguments.

  The output window's block at grid point `(bi, ci)` is rows `bi · 128 …` and columns `ci · 4096 …` of the
  256 × 131072 result; the combination tile at that point is rows `ci · 128 …` of the table and the feature tile
  rows `bi · 128 …` of the features; the weights' and biases' blocks are the whole arrays at every point. So entry
  `(b, r)` of the result is the network's output `r % 32` on feature row `b` and table row `r / 32`, whichever point
  wrote it, and since the 2 × 32 blocks tile the array every entry is written. The closing reshape reads entry
  `(b, c, o)` of the program's result at `(b, c · 32 + o)`.
-/
import proofs.«112589_j25271587570218_2_alg».proof.Proof.KernelIdealRun
import proofs.«112589_j25271587570218_2_alg».proof.Proof.BlockValue
import proofs.«112589_j25271587570218_2_alg».proof.Proof.EntryArrays
import proofs.«112589_j25271587570218_2_alg».proof.Proof.Spec
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ) (ρ : Dev nD → PrngReg) (c : Dev nD)

/-! ## The result as a function of the arguments -/

/-- Entry `(b, r)` of the call's result: the network's output `r % 32` on feature row `b` and table row `r / 32`. -/
def resultAt (phi : S256x64.Idx → EReal) (tab : S4096x64.Idx → EReal) (w1 : S64x128.Idx → EReal) (b1 : S64.Idx → EReal)
    (w2 : S64x64.Idx → EReal) (b2 : S64.Idx → EReal) (w3 : S32x64.Idx → EReal) (b3 : S32.Idx → EReal)
    (b : Fin 256) (r : Fin 131072) : EReal :=
  Spec.mlp (fun j => phi (ix2 b j)) (fun i => tab (ix2 (⟨r.val / 32, by omega⟩ : Fin 4096) i))
    (fun h j => w1 (ix2 h (⟨64 + j.val, by omega⟩ : Fin 128))) (fun h i => w1 (ix2 h (⟨i.val, by omega⟩ : Fin 128)))
    (fun h => b1 (ix1 h)) (fun g h => w2 (ix2 g h)) (fun g => b2 (ix1 g)) (fun o g => w3 (ix2 o g)) (fun o => b3 (ix1 o))
    (⟨r.val % 32, by omega⟩ : Fin 32)

/-- The call's whole result array. -/
def callResult (phi : S256x64.Idx → EReal) (tab : S4096x64.Idx → EReal) (w1 : S64x128.Idx → EReal) (b1 : S64.Idx → EReal)
    (w2 : S64x64.Idx → EReal) (b2 : S64.Idx → EReal) (w3 : S32x64.Idx → EReal) (b3 : S32.Idx → EReal) :
    S256x131072.Idx → EReal :=
  fun y => resultAt phi tab w1 b1 w2 b2 w3 b3 ⟨(y 0).val, idx2_lt0 y⟩ ⟨(y 1).val, idx2_lt1 y⟩

/-- The call's result array in terms of the launched memory: the features, the table operand as the region finds
    it, and the weights and biases. -/
abbrev callResultOf : S256x131072.Idx → EReal :=
  callResult (m ((c : Thread nD τ).loc main_arg0)) (V m c main_v52) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The index maps over the grid -/

/-- The combination tile moves with the output's column block and the feature tile with its row block; every other
    input window stays at the origin; the output's block indices stay in their ranges. -/
theorem index_facts : ∀ t : Fin cfg0.N,
    win0_0.index t (0 : Fin 2) = win0_9.index t (1 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 1 ∧ win0_9.index t (1 : Fin 2) ≤ 31 :=
  (by decide +kernel : ∀ t : Fin grid0.N, _)

/-- Every block of the result is some point's. -/
theorem index_onto : ∀ (q0 : Fin 2) (q1 : Fin 32), ∃ t : Fin cfg0.N, win0_9.index t = ![q0.val, q1.val] :=
  (by decide +kernel : ∀ (q0 : Fin 2) (q1 : Fin 32), ∃ t : Fin grid0.N, win0_9.index t = ![q0.val, q1.val])

theorem row_lt (t : Fin cfg0.N) : win0_9.index t (0 : Fin 2) ≤ 1 := (index_facts t).2.2.2.2.2.2.2.2.2.2.2.2.2.2.2.2.2.2.1
theorem col_lt (t : Fin cfg0.N) : win0_9.index t (1 : Fin 2) ≤ 31 := (index_facts t).2.2.2.2.2.2.2.2.2.2.2.2.2.2.2.2.2.2.2

/-- Row `p` of the feature tile at point `t`, as a row of the features. -/
def featureRow (t : Fin cfg0.N) (p : Fin 128) : Fin 256 := ⟨win0_9.index t (0 : Fin 2) * 128 + p.val, by have := row_lt t; omega⟩
/-- Row `q` of the combination tile at point `t`, as a row of the table. -/
def tableRow (t : Fin cfg0.N) (q : Fin 128) : Fin 4096 := ⟨win0_9.index t (1 : Fin 2) * 128 + q.val, by have := col_lt t; omega⟩
/-- Column `r` of the output block at point `t`, as a column of the result. -/
def resultCol (t : Fin cfg0.N) (r : Fin 4096) : Fin 131072 := ⟨win0_9.index t (1 : Fin 2) * 4096 + r.val, by have := col_lt t; omega⟩

/-! ## The windows' blocks at coordinates -/

theorem block0 (t : Fin cfg0.N) (q : Fin 128) (i : Fin 64) :
    iblk m c 0 t (ix2 q i) = (V m c main_v52 : S4096x64.Idx → EReal) (ix2 (tableRow t q) i) := by
  obtain ⟨f00, f01, -⟩ := index_facts t
  show V m c main_v52 (((cfg0.win 0).blk t).view.emb (ix2 q i)) = V m c main_v52 (ix2 (tableRow t q) i)
  refine congrArg (V m c main_v52) (funext fun ax => Fin.ext ?_)
  match ax with
  | ⟨0, _⟩ => show win0_0.index t (0 : Fin 2) * 128 + 1 * q.val = win0_9.index t (1 : Fin 2) * 128 + q.val; omega
  | ⟨1, _⟩ => show win0_0.index t (1 : Fin 2) * 64 + 1 * i.val = i.val; omega

theorem block1 (t : Fin cfg0.N) (p : Fin 128) (j : Fin 64) :
    iblk m c 1 t (ix2 p j) = (V m c main_v53 : S256x64.Idx → EReal) (ix2 (featureRow t p) j) := by
  obtain ⟨-, -, f10, f11, -⟩ := index_facts t
  show V m c main_v53 (((cfg0.win 1).blk t).view.emb (ix2 p j)) = V m c main_v53 (ix2 (featureRow t p) j)
  refine congrArg (V m c main_v53) (funext fun ax => Fin.ext ?_)
  match ax with
  | ⟨0, _⟩ => show win0_1.index t (0 : Fin 2) * 128 + 1 * p.val = win0_9.index t (0 : Fin 2) * 128 + p.val; omega
  | ⟨1, _⟩ => show win0_1.index t (1 : Fin 2) * 64 + 1 * j.val = j.val; omega

theorem block2 (t : Fin cfg0.N) (a : Fin 64) (b : Fin 64) :
    iblk m c 2 t (ix2 a b) = (V m c main_v54 : S64x64.Idx → EReal) (ix2 a b) := by
  obtain ⟨-, -, -, -, f20, f21, f30, f31, f40, f41, f50, f51, f60, f61, f70, f71, f80, f81, -, -⟩ := index_facts t
  show V m c main_v54 (((cfg0.win 2).blk t).view.emb (ix2 a b)) = V m c main_v54 (ix2 a b)
  refine congrArg (V m c main_v54) (funext fun ax => Fin.ext ?_)
  match ax with
  | ⟨0, _⟩ => show win0_2.index t (0 : Fin 2) * 64 + 1 * a.val = a.val; omega
  | ⟨1, _⟩ => show win0_2.index t (1 : Fin 2) * 64 + 1 * b.val = b.val; omega

theorem block3 (t : Fin cfg0.N) (a : Fin 64) (b : Fin 64) :
    iblk m c 3 t (ix2 a b) = (V m c main_v55 : S64x64.Idx → EReal) (ix2 a b) := by
  obtain ⟨-, -, -, -, f20, f21, f30, f31, f40, f41, f50, f51, f60, f61, f70, f71, f80, f81, -, -⟩ := index_facts t
  show V m c main_v55 (((cfg0.win 3).blk t).view.emb (ix2 a b)) = V m c main_v55 (ix2 a b)
  refine congrArg (V m c main_v55) (funext fun ax => Fin.ext ?_)
  match ax with
  | ⟨0, _⟩ => show win0_3.index t (0 : Fin 2) * 64 + 1 * a.val = a.val; omega
  | ⟨1, _⟩ => show win0_3.index t (1 : Fin 2) * 64 + 1 * b.val = b.val; omega

theorem block4 (t : Fin cfg0.N) (a : Fin 64) (b : Fin 64) :
    iblk m c 4 t (ix2 a b) = (V m c main_v56 : S64x64.Idx → EReal) (ix2 a b) := by
  obtain ⟨-, -, -, -, f20, f21, f30, f31, f40, f41, f50, f51, f60, f61, f70, f71, f80, f81, -, -⟩ := index_facts t
  show V m c main_v56 (((cfg0.win 4).blk t).view.emb (ix2 a b)) = V m c main_v56 (ix2 a b)
  refine congrArg (V m c main_v56) (funext fun ax => Fin.ext ?_)
  match ax with
  | ⟨0, _⟩ => show win0_4.index t (0 : Fin 2) * 64 + 1 * a.val = a.val; omega
  | ⟨1, _⟩ => show win0_4.index t (1 : Fin 2) * 64 + 1 * b.val = b.val; omega

theorem block5 (t : Fin cfg0.N) (a : Fin 32) (b : Fin 64) :
    iblk m c 5 t (ix2 a b) = (V m c main_v57 : S32x64.Idx → EReal) (ix2 a b) := by
  obtain ⟨-, -, -, -, f20, f21, f30, f31, f40, f41, f50, f51, f60, f61, f70, f71, f80, f81, -, -⟩ := index_facts t
  show V m c main_v57 (((cfg0.win 5).blk t).view.emb (ix2 a b)) = V m c main_v57 (ix2 a b)
  refine congrArg (V m c main_v57) (funext fun ax => Fin.ext ?_)
  match ax with
  | ⟨0, _⟩ => show win0_5.index t (0 : Fin 2) * 32 + 1 * a.val = a.val; omega
  | ⟨1, _⟩ => show win0_5.index t (1 : Fin 2) * 64 + 1 * b.val = b.val; omega

theorem block6 (t : Fin cfg0.N) (a : Fin 1) (b : Fin 64) :
    iblk m c 6 t (ix2 a b) = (V m c main_v49 : S1x64.Idx → EReal) (ix2 a b) := by
  obtain ⟨-, -, -, -, f20, f21, f30, f31, f40, f41, f50, f51, f60, f61, f70, f71, f80, f81, -, -⟩ := index_facts t
  show V m c main_v49 (((cfg0.win 6).blk t).view.emb (ix2 a b)) = V m c main_v49 (ix2 a b)
  refine congrArg (V m c main_v49) (funext fun ax => Fin.ext ?_)
  match ax with
  | ⟨0, _⟩ => show win0_6.index t (0 : Fin 2) * 1 + 1 * a.val = a.val; omega
  | ⟨1, _⟩ => show win0_6.index t (1 : Fin 2) * 64 + 1 * b.val = b.val; omega

theorem block7 (t : Fin cfg0.N) (a : Fin 1) (b : Fin 64) :
    iblk m c 7 t (ix2 a b) = (V m c main_v50 : S1x64.Idx → EReal) (ix2 a b) := by
  obtain ⟨-, -, -, -, f20, f21, f30, f31, f40, f41, f50, f51, f60, f61, f70, f71, f80, f81, -, -⟩ := index_facts t
  show V m c main_v50 (((cfg0.win 7).blk t).view.emb (ix2 a b)) = V m c main_v50 (ix2 a b)
  refine congrArg (V m c main_v50) (funext fun ax => Fin.ext ?_)
  match ax with
  | ⟨0, _⟩ => show win0_7.index t (0 : Fin 2) * 1 + 1 * a.val = a.val; omega
  | ⟨1, _⟩ => show win0_7.index t (1 : Fin 2) * 64 + 1 * b.val = b.val; omega

theorem block8 (t : Fin cfg0.N) (a : Fin 1) (b : Fin 32) :
    iblk m c 8 t (ix2 a b) = (V m c main_v51 : S1x32.Idx → EReal) (ix2 a b) := by
  obtain ⟨-, -, -, -, f20, f21, f30, f31, f40, f41, f50, f51, f60, f61, f70, f71, f80, f81, -, -⟩ := index_facts t
  show V m c main_v51 (((cfg0.win 8).blk t).view.emb (ix2 a b)) = V m c main_v51 (ix2 a b)
  refine congrArg (V m c main_v51) (funext fun ax => Fin.ext ?_)
  match ax with
  | ⟨0, _⟩ => show win0_8.index t (0 : Fin 2) * 1 + 1 * a.val = a.val; omega
  | ⟨1, _⟩ => show win0_8.index t (1 : Fin 2) * 32 + 1 * b.val = b.val; omega

/-- Entry `(p, r)` of the output block at point `t` is entry `(featureRow t p, resultCol t r)` of the result. -/
theorem out_emb (t : Fin cfg0.N) (p : Fin 128) (r : Fin 4096) :
    ((cfg0.win 9).blk t).view.emb (ix2 p r) = (ix2 (featureRow t p) (resultCol t r) : S256x131072.Idx) := by
  funext ax; apply Fin.ext
  match ax with
  | ⟨0, _⟩ => show win0_9.index t (0 : Fin 2) * 128 + 1 * p.val = win0_9.index t (0 : Fin 2) * 128 + p.val; omega
  | ⟨1, _⟩ => show win0_9.index t (1 : Fin 2) * 4096 + 1 * r.val = win0_9.index t (1 : Fin 2) * 4096 + r.val; omega

/-! ## What a point writes back -/

theorem table_row_of_col (t : Fin cfg0.N) (r : Fin 4096) :
    (⟨(resultCol t r).val / 32, by have := (resultCol t r).isLt; omega⟩ : Fin 4096) = tableRow t ⟨r.val / 32, by omega⟩ :=
  Fin.ext (by show (win0_9.index t (1 : Fin 2) * 4096 + r.val) / 32 = win0_9.index t (1 : Fin 2) * 128 + r.val / 32; omega)

theorem out_of_col (t : Fin cfg0.N) (r : Fin 4096) :
    (⟨(resultCol t r).val % 32, by omega⟩ : Fin 32) = ⟨r.val % 32, by omega⟩ :=
  Fin.ext (by show (win0_9.index t (1 : Fin 2) * 4096 + r.val) % 32 = r.val % 32; omega)

/-- What point `t` writes back is its block of the result function. -/
theorem flushed_eq (t : Fin cfg0.N) :
    (dats m 0 c).flushed 9 t = ((cfg0.win 9).blk t).view.read (Elt Ideal) (callResultOf m c) := by
  show (cfg0.win 9).cut (grid0.coords t) ((dats m 0 c).after 9 t) = _
  rw [after_out]
  unfold outBlock
  rw [View.canon_unit_zero BlockValue.origin2]
  refine funext fun (y : S128x4096.Idx) => ?_
  obtain ⟨p, r, rfl⟩ : ∃ (p : Fin 128) (r : Fin 4096), y = ix2 p r := ⟨y 0, y 1, eq_ix2 y⟩
  show outValue (F := Ideal) (iblk m c 0 t) (iblk m c 1 t) (iblk m c 2 t) (iblk m c 3 t) (iblk m c 4 t) (iblk m c 5 t)
      (iblk m c 6 t) (iblk m c 7 t) (iblk m c 8 t) (ix2 p r) = callResultOf m c (((cfg0.win 9).blk t).view.emb (ix2 p r))
  refine (BlockValue.outValue_apply (iblk m c 0 t) (iblk m c 1 t) (iblk m c 2 t) (iblk m c 3 t) (iblk m c 4 t) (iblk m c 5 t)
      (iblk m c 6 t) (iblk m c 7 t) (iblk m c 8 t) p r).trans ?_
  rw [out_emb]
  show _ = resultAt _ _ _ _ _ _ _ _ (featureRow t p) (resultCol t r)
  unfold resultAt
  rw [table_row_of_col, out_of_col]
  simp only [block0, block1, block2, block3, block4, block5, block6, block7, block8]
  exact Spec.mlp_congr _ (fun j => Entry.features_apply m c _ j) (fun i => rfl)
    (fun h j => Entry.w1_feature_half_apply m c h j) (fun h i => Entry.w1_table_half_apply m c h i)
    (fun h => Entry.b1_apply m c h) (fun g h => Entry.w2_apply m c g h) (fun g => Entry.b2_apply m c g)
    (fun o g => Entry.w3_apply m c o g) (fun o => Entry.b3_apply m c o)

/-! ## The cover and the final array -/

theorem mem_block (t : Fin cfg0.N) (i : S256x131072.Idx) :
    i ∈ ((cfg0.win 9).blk t).view.set ↔ ∀ a : Fin 2, win0_9.index t a * S128x4096.size a ≤ (i a).val ∧ (i a).val < win0_9.index t a * S128x4096.size a + S128x4096.size a := by
  show i ∈ ((View.whole main_v58).slice (win0_9.rect t)).set ↔ _
  rw [View.set_slice_whole, Rect.mem_set_unit]
  exact Iff.rfl

/-- Every entry of the result lies in some point's block. -/
theorem covered (i : S256x131072.Idx) : ∃ t : Fin cfg0.N, (cfg0.win 9).flush t = true ∧ i ∈ ((cfg0.win 9).blk t).view.set := by
  have hi0 : (i 0).val < 256 := idx2_lt0 i
  have hi1 : (i 1).val < 131072 := idx2_lt1 i
  obtain ⟨t, ht⟩ := index_onto ⟨(i 0).val / 128, by omega⟩ ⟨(i 1).val / 4096, by omega⟩
  have q0 : win0_9.index t (0 : Fin 2) = (i 0).val / 128 := congrFun ht 0
  have q1 : win0_9.index t (1 : Fin 2) = (i 1).val / 4096 := congrFun ht 1
  refine ⟨t, flush0_9 t, ?_⟩
  rw [mem_block]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 4096 ≤ (i 1).val ∧ (i 1).val < win0_9.index t (1 : Fin 2) * 4096 + 4096; omega

/-- After the run the result array is the result function of the arguments. -/
theorem final_array : (dats m 0 c).arrAt 9 cfg0.N = callResultOf m c :=
  (dats m 0 c).arrAt_eq_of_cover 9 (callResultOf m c) (fun t _ => flushed_eq m c t) (covered)

/-! ## The closing reshape and the program's result -/

/-- The program's result: entry `(b, c, o)` is entry `(b, c · 32 + o)` of the call's result. -/
def programResult : S256x4096x32.Idx → EReal :=
  shapeCast S256x4096x32 (callResultOf m c) shapeCasts_S256x131072_S256x4096x32

/-- What the closing reshape leaves in the result buffer. -/
theorem tail_value : Pipeline.afterTail₀ cfgs (dats m) 0 (V0 m) [hostOps1] c main_v59 = programResult m c := by
  unfold Pipeline.afterTail₀
  show StableHlo.after hostOps1 _ (Proc.devRef .tc main_v59) = _
  after_results
  have e : Pipeline.withArrays (cfgs 0).spec c (V0 m c) (fun w => (dats m 0 c).arrAt w (cfgs 0).N) (Proc.devRef .tc main_v58)
      = callResultOf m c :=
    (Pipeline.withArrays_arr spec0 launch0.win.arr_inj c (V0 m c) (fun w => (dats m 0 c).arrAt w cfg0.N) 9).trans (final_array m c)
  rw [e]
  rfl

/-- Every weakly fair execution of the program terminates without a fault, its result buffer at `programResult` and its
    arguments as launched. -/
theorem kernel_run : θ_run defs (onTc (τ := τ) (main (F := Ideal))) ⟨m, fun _ => 0, ρ⟩ (fun r => ∀ c : Dev nD,
      r.2.mem ((c.tc : Thread nD τ).loc main_v59) = programResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v59 (Pipeline.mem_restRefs_of main_v59 (by decide) (by decide))).trans (tail_value m c),
      ((h c).2 main_arg0 (Pipeline.mem_restRefs_of main_arg0 (by decide) (by decide))).trans (exit_arg0 m (dats m) c),
      ((h c).2 main_arg1 (Pipeline.mem_restRefs_of main_arg1 (by decide) (by decide))).trans (exit_arg1 m (dats m) c),
      ((h c).2 main_arg2 (Pipeline.mem_restRefs_of main_arg2 (by decide) (by decide))).trans (exit_arg2 m (dats m) c),
      ((h c).2 main_arg3 (Pipeline.mem_restRefs_of main_arg3 (by decide) (by decide))).trans (exit_arg3 m (dats m) c),
      ((h c).2 main_arg4 (Pipeline.mem_restRefs_of main_arg4 (by decide) (by decide))).trans (exit_arg4 m (dats m) c),
      ((h c).2 main_arg5 (Pipeline.mem_restRefs_of main_arg5 (by decide) (by decide))).trans (exit_arg5 m (dats m) c),
      ((h c).2 main_arg6 (Pipeline.mem_restRefs_of main_arg6 (by decide) (by decide))).trans (exit_arg6 m (dats m) c),
      ((h c).2 main_arg7 (Pipeline.mem_restRefs_of main_arg7 (by decide) (by decide))).trans (exit_arg7 m (dats m) c)⟩) (run_main m ρ)

/-- Entry `(b, c, o)` of the program's result is the network's output `o` on feature row `b` and table row `c`. -/
theorem programResult_apply (b : Fin 256) (cc : Fin 4096) (o : Fin 32) :
    programResult m c (ix3 b cc o)
      = Spec.mlp (fun j => m ((c : Thread nD τ).loc main_arg0) (ix2 b j)) (fun i => (V m c main_v52 : S4096x64.Idx → EReal) (ix2 cc i))
          (fun h j => m ((c : Thread nD τ).loc main_arg2) (ix2 h (⟨64 + j.val, by omega⟩ : Fin 128)))
          (fun h i => m ((c : Thread nD τ).loc main_arg2) (ix2 h (⟨i.val, by omega⟩ : Fin 128)))
          (fun h => m ((c : Thread nD τ).loc main_arg3) (ix1 h)) (fun g h => m ((c : Thread nD τ).loc main_arg4) (ix2 g h))
          (fun g => m ((c : Thread nD τ).loc main_arg5) (ix1 g)) (fun o g => m ((c : Thread nD τ).loc main_arg6) (ix2 o g))
          (fun o => m ((c : Thread nD τ).loc main_arg7) (ix1 o)) o := by
  unfold programResult
  rw [shapeCast_apply (callResultOf m c) shapeCasts_S256x131072_S256x4096x32 (ix3 b cc o)
    (ix2 b (⟨cc.val * 32 + o.val, by omega⟩ : Fin 131072)) (by
      rw [Shape.rowMajor_val_two, Shape.rowMajor_val_three]
      show b.val * 131072 + (cc.val * 32 + o.val) = (b.val * 4096 + cc.val) * 32 + o.val
      omega)]
  show resultAt _ _ _ _ _ _ _ _ b (⟨cc.val * 32 + o.val, by omega⟩ : Fin 131072) = _
  unfold resultAt
  have e1 : (⟨(⟨cc.val * 32 + o.val, by omega⟩ : Fin 131072).val / 32, by omega⟩ : Fin 4096) = cc := Fin.ext (by show (cc.val * 32 + o.val) / 32 = cc.val; omega)
  have e2 : (⟨(⟨cc.val * 32 + o.val, by omega⟩ : Fin 131072).val % 32, by omega⟩ : Fin 32) = o := Fin.ext (by show (cc.val * 32 + o.val) % 32 = o.val; omega)
  rw [e1, e2]

end Cert.KernelIdeal.Val

end
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.TableValue.lean ====
/-
  The table operand of the pallas_call, as a function of the region parameters.

  Both programs build the table of all 8⁴ = 4096 combinations of one 16-vector per level by the same host operations:
  an index tensor made of iotas, broadcasts, two concatenates and a transpose, a gather of the region parameters at it,
  and a reshape to 4096 × 64. Here the kernel program's table operand, read off the fold of its host operations, is
  that composition of the region parameters, after a change of float format that is the identity on extended reals.
  The composition is named stage by stage on the reference's side; the two spellings agree term by term.
-/
import proofs.«112589_j25271587570218_2_alg».proof.Proof.KernelIdealHost
import proofs.«112589_j25271587570218_2_alg».proof.Proof.ReferenceRead
import proofs.«112589_j25271587570218_2_alg».proof.Proof.LibConcatenateSimp
import Idealize.ShloMosaic.PureOps.Ideal.Laws
import Idealize.ShloMosaic.Lib.StableHlo.Run

set_option maxRecDepth 16384

noncomputable section

namespace Cert.KernelIdeal.Table

open Idealize.ShloMosaic Idealize.ShloMosaic.TcCoe Idealize.SL.Sem Idealize.ShloMosaic.StableHlo Idealize.ShloMosaic.ValueIdx
open Cert.KernelIdeal Cert.KernelIdeal.Gen Cert.KernelIdeal.Fr

attribute [local congr] Cert.LibConcatenateSimp.concatenate2_congr Cert.LibConcatenateSimp.concatenate4_congr

variable (m : (ℓ : Loc nD τ sig) → Buf (Elt Ideal) ℓ) (c : Dev nD)

set_option maxHeartbeats 16000000 in
/-- The table operand at region entry is the table of the region parameters. -/
theorem table_eq : (V m c main_v52 : FVec Ideal S4096x64 .bf16)
    = truncf (F := Ideal) .bf16 (Cert.ReferenceIdeal.ReadP.val_main_v46 (F := Ideal) (m ((c : Thread nD τ).loc main_arg1)) : FVec Ideal S4096x64 .f32) bitsLt_bf16_f32 := by
  show StableHlo.after hostOps0 (fun b => m (c, b)) (Proc.devRef .tc main_v52) = _
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatenateSimp.vec4_at0, Cert.LibConcatenateSimp.vec4_at1, Cert.LibConcatenateSimp.vec4_at2, Cert.LibConcatenateSimp.vec4_at3]
  simp only [Cert.ReferenceIdeal.ReadP.val_main_v46, Cert.ReferenceIdeal.ReadP.val_main_v45, Cert.ReferenceIdeal.ReadP.val_main_v44, Cert.ReferenceIdeal.ReadP.val_main_v43, Cert.ReferenceIdeal.ReadP.val_main_v42, Cert.ReferenceIdeal.ReadP.val_main_v41, Cert.ReferenceIdeal.ReadP.val_main_v40, Cert.ReferenceIdeal.ReadP.val_main_v39, Cert.ReferenceIdeal.ReadP.val_main_v38, Cert.ReferenceIdeal.ReadP.val_main_c_10, Cert.ReferenceIdeal.ReadP.val_main_v37, Cert.ReferenceIdeal.ReadP.val_main_v36, Cert.ReferenceIdeal.ReadP.val_main_c_9, Cert.ReferenceIdeal.ReadP.val_main_v35, Cert.ReferenceIdeal.ReadP.val_main_v34, Cert.ReferenceIdeal.ReadP.val_main_v33, Cert.ReferenceIdeal.ReadP.val_main_c_8, Cert.ReferenceIdeal.ReadP.val_main_v32, Cert.ReferenceIdeal.ReadP.val_main_v31, Cert.ReferenceIdeal.ReadP.val_main_c_7, Cert.ReferenceIdeal.ReadP.val_main_v30, Cert.ReferenceIdeal.ReadP.val_main_v29, Cert.ReferenceIdeal.ReadP.val_main_v28, Cert.ReferenceIdeal.ReadP.val_main_v27, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_v20, Cert.ReferenceIdeal.ReadP.val_main_v19, Cert.ReferenceIdeal.ReadP.val_main_v18, Cert.ReferenceIdeal.ReadP.val_main_c_6, Cert.ReferenceIdeal.ReadP.val_main_v17, Cert.ReferenceIdeal.ReadP.val_main_v16, Cert.ReferenceIdeal.ReadP.val_main_c_5, Cert.ReferenceIdeal.ReadP.val_main_v15, Cert.ReferenceIdeal.ReadP.val_main_v14, Cert.ReferenceIdeal.ReadP.val_main_v13, Cert.ReferenceIdeal.ReadP.val_main_c_4, Cert.ReferenceIdeal.ReadP.val_main_v12, Cert.ReferenceIdeal.ReadP.val_main_v11, Cert.ReferenceIdeal.ReadP.val_main_c_3, Cert.ReferenceIdeal.ReadP.val_main_v10, Cert.ReferenceIdeal.ReadP.val_main_v9, Cert.ReferenceIdeal.ReadP.val_main_v8, Cert.ReferenceIdeal.ReadP.val_main_c_2, Cert.ReferenceIdeal.ReadP.val_main_v7, Cert.ReferenceIdeal.ReadP.val_main_v6, Cert.ReferenceIdeal.ReadP.val_main_c_1, Cert.ReferenceIdeal.ReadP.val_main_v5, Cert.ReferenceIdeal.ReadP.val_main_v4, Cert.ReferenceIdeal.ReadP.val_main_v3, Cert.ReferenceIdeal.ReadP.val_main_c_0, Cert.ReferenceIdeal.ReadP.val_main_v2, Cert.ReferenceIdeal.ReadP.val_main_v1, Cert.ReferenceIdeal.ReadP.val_main_c, Cert.ReferenceIdeal.ReadP.val_main_v0]
  rfl

/-- Row `cc` of the table operand. -/
theorem table_apply (cc : Fin 4096) (i : Fin 64) :
    (V m c main_v52 : S4096x64.Idx → EReal) (ix2 cc i)
      = Cert.ReferenceIdeal.ReadP.val_main_v46 (F := Ideal) (m ((c : Thread nD τ).loc main_arg1)) (ix2 cc i) := by
  rw [table_eq]; rfl

end Cert.KernelIdeal.Table

end
-- ==== Proof.RefValue.lean ====
/-
  The reference's result at an index, over the extended reals.

  The reference joins each table row with each feature row into a 128-long row (the table's 64 numbers first), takes
  its products with the rows of the first layer's weights, adds the bias and rectifies; then the second and the
  third layer likewise. A 128-term product sum of a joined row is the sum over the feature half plus the sum over the
  table half, so entry `(b, c, o)` of the reference's result is the network's output `o` on feature row `b` and
  table row `c`, in the same form as the kernel's.
-/
import proofs.«112589_j25271587570218_2_alg».proof.Proof.ReferenceRead
import proofs.«112589_j25271587570218_2_alg».proof.Proof.Spec
import Idealize.ShloMosaic.Lib.Pipeline.Value

set_option maxRecDepth 16384

noncomputable section

namespace Cert.ReferenceIdeal.RefValue

open Cert.ReferenceIdeal Cert.ReferenceIdeal.Gen Cert.ReferenceIdeal.ReadP Idealize.ShloMosaic Idealize.ShloMosaic.ValueIdx

variable (a0 : (⟨S256x64, .f32⟩ : BufTy).Contents (Elt Ideal)) (a1 : (⟨S4x8x16, .f32⟩ : BufTy).Contents (Elt Ideal)) (a2 : (⟨S64x128, .f32⟩ : BufTy).Contents (Elt Ideal)) (a3 : (⟨S64, .f32⟩ : BufTy).Contents (Elt Ideal))
  (a4 : (⟨S64x64, .f32⟩ : BufTy).Contents (Elt Ideal)) (a5 : (⟨S64, .f32⟩ : BufTy).Contents (Elt Ideal)) (a6 : (⟨S32x64, .f32⟩ : BufTy).Contents (Elt Ideal)) (a7 : (⟨S32, .f32⟩ : BufTy).Contents (Elt Ideal))

/-! ## The joined row, in its two halves -/

/-- The first 64 entries of the joined row `(b, c)` are table row `c`. -/
theorem joined_table (b : Fin 256) (c : Fin 4096) (i : Fin 64) :
    val_main_v51 (F := Ideal) a0 a1 (ix3 b c (⟨i.val, by omega⟩ : Fin 128)) = val_main_v46 (F := Ideal) a1 (ix2 c i) := by
  unfold val_main_v51
  refine (concatenate_pair_apply_left (t := S256x4096x128) (s₁ := S256x4096x64) (s₂ := S256x4096x64) _ _ _ _ (ix3 b c (⟨i.val, by omega⟩ : Fin 128)) rfl (ix3 b c i : S256x4096x64.Idx)
    (fun ax => match ax with | ⟨0, _⟩ => rfl | ⟨1, _⟩ => rfl | ⟨2, _⟩ => rfl)).trans ?_
  rw [val_main_v50_apply, val_main_v49_apply]
  exact congrArg (val_main_v46 (F := Ideal) a1) (funext fun ax => Fin.ext (by match ax with | ⟨0, _⟩ => rfl | ⟨1, _⟩ => rfl))

/-- The last 64 entries of the joined row `(b, c)` are feature row `b`. -/
theorem joined_features (b : Fin 256) (c : Fin 4096) (j : Fin 64) :
    val_main_v51 (F := Ideal) a0 a1 (ix3 b c (⟨64 + j.val, by omega⟩ : Fin 128)) = a0 (ix2 b j) := by
  unfold val_main_v51
  refine (concatenate_pair_apply_right (t := S256x4096x128) (s₁ := S256x4096x64) (s₂ := S256x4096x64) _ _ _ _ (ix3 b c (⟨64 + j.val, by omega⟩ : Fin 128)) rfl rfl (ix3 b c j : S256x4096x64.Idx)
    (fun ax hne => match ax with | ⟨0, _⟩ => rfl | ⟨1, _⟩ => rfl | ⟨2, _⟩ => absurd rfl hne)
    (by show j.val + 64 = 64 + j.val; omega)).trans ?_
  rw [val_main_v48_apply, val_main_v47_apply]
  exact congrArg a0 (funext fun ax => Fin.ext (by match ax with | ⟨0, _⟩ => rfl | ⟨1, _⟩ => rfl))

/-! ## The three layers -/

/-- The rectified first layer at `(b, c, h)`. -/
theorem first_layer (b : Fin 256) (c : Fin 4096) (h : Fin 64) :
    val_main_v56 (F := Ideal) a0 a1 a2 a3 (ix3 b c h)
      = max (((∑ j : Fin 64, a0 (ix2 b j) * a2 (ix2 h (⟨64 + j.val, by omega⟩ : Fin 128)))
          + ∑ i : Fin 64, val_main_v46 (F := Ideal) a1 (ix2 c i) * a2 (ix2 h (⟨i.val, by omega⟩ : Fin 128))) + a3 (ix1 h)) Spec.zeroWord := by
  rw [val_main_v56_apply, val_main_v55_apply, val_main_v52_apply, val_main_v54_apply, val_main_v53_apply,
    val_main_call0_v0_apply, val_main_call0_cst_apply, Spec.sum_halves]
  have hf : ∀ j : Fin 64, val_main_v51 (F := Ideal) a0 a1 (lidx_main_v52 (ix3 b c h) (⟨64 + j.val, by omega⟩ : Fin 128))
        * a2 (ridx_main_v52 (ix3 b c h) (⟨64 + j.val, by omega⟩ : Fin 128)) = a0 (ix2 b j) * a2 (ix2 h (⟨64 + j.val, by omega⟩ : Fin 128)) := fun j => by
    rw [show lidx_main_v52 (ix3 b c h) (⟨64 + j.val, by omega⟩ : Fin 128) = ix3 b c (⟨64 + j.val, by omega⟩ : Fin 128) from funext fun ax => Fin.ext (by match ax with | ⟨0, _⟩ => rfl | ⟨1, _⟩ => rfl | ⟨2, _⟩ => rfl),
      show ridx_main_v52 (ix3 b c h) (⟨64 + j.val, by omega⟩ : Fin 128) = ix2 h (⟨64 + j.val, by omega⟩ : Fin 128) from funext fun ax => Fin.ext (by match ax with | ⟨0, _⟩ => rfl | ⟨1, _⟩ => rfl),
      joined_features]
  have ht : ∀ i : Fin 64, val_main_v51 (F := Ideal) a0 a1 (lidx_main_v52 (ix3 b c h) (⟨i.val, by omega⟩ : Fin 128))
        * a2 (ridx_main_v52 (ix3 b c h) (⟨i.val, by omega⟩ : Fin 128)) = val_main_v46 (F := Ideal) a1 (ix2 c i) * a2 (ix2 h (⟨i.val, by omega⟩ : Fin 128)) := fun i => by
    rw [show lidx_main_v52 (ix3 b c h) (⟨i.val, by omega⟩ : Fin 128) = ix3 b c (⟨i.val, by omega⟩ : Fin 128) from funext fun ax => Fin.ext (by match ax with | ⟨0, _⟩ => rfl | ⟨1, _⟩ => rfl | ⟨2, _⟩ => rfl),
      show ridx_main_v52 (ix3 b c h) (⟨i.val, by omega⟩ : Fin 128) = ix2 h (⟨i.val, by omega⟩ : Fin 128) from funext fun ax => Fin.ext (by match ax with | ⟨0, _⟩ => rfl | ⟨1, _⟩ => rfl),
      joined_table]
  rw [Finset.sum_congr rfl (fun j _ => hf j), Finset.sum_congr rfl (fun i _ => ht i)]
  have hb : idx_main_v53 (idx_main_v54 (ix3 b c h)) = ix1 h := funext fun ax => Fin.ext (by match ax with | ⟨0, _⟩ => rfl)
  rw [hb]
  rfl

/-- The rectified second layer at `(b, c, g)`. -/
theorem second_layer (b : Fin 256) (c : Fin 4096) (g : Fin 64) :
    val_main_v61 (F := Ideal) a0 a1 a2 a3 a4 a5 (ix3 b c g)
      = max ((∑ h : Fin 64, val_main_v56 (F := Ideal) a0 a1 a2 a3 (ix3 b c h) * a4 (ix2 g h)) + a5 (ix1 g)) Spec.zeroWord := by
  rw [val_main_v61_apply, val_main_v60_apply, val_main_v57_apply, val_main_v59_apply, val_main_v58_apply,
    val_main_call1_v0_apply, val_main_call1_cst_apply]
  have hs : ∀ h : Fin 64, val_main_v56 (F := Ideal) a0 a1 a2 a3 (lidx_main_v57 (ix3 b c g) h) * a4 (ridx_main_v57 (ix3 b c g) h)
      = val_main_v56 (F := Ideal) a0 a1 a2 a3 (ix3 b c h) * a4 (ix2 g h) := fun h => by
    rw [show lidx_main_v57 (ix3 b c g) h = ix3 b c h from funext fun ax => Fin.ext (by match ax with | ⟨0, _⟩ => rfl | ⟨1, _⟩ => rfl | ⟨2, _⟩ => rfl),
      show ridx_main_v57 (ix3 b c g) h = ix2 g h from funext fun ax => Fin.ext (by match ax with | ⟨0, _⟩ => rfl | ⟨1, _⟩ => rfl)]
  rw [Finset.sum_congr rfl (fun h _ => hs h)]
  have hb : idx_main_v58 (idx_main_v59 (ix3 b c g)) = ix1 g := funext fun ax => Fin.ext (by match ax with | ⟨0, _⟩ => rfl)
  rw [hb]
  rfl

/-- The reference's result at `(b, c, o)`. -/
theorem third_layer (b : Fin 256) (c : Fin 4096) (o : Fin 32) :
    val_main_v65 (F := Ideal) a0 a1 a2 a3 a4 a5 a6 a7 (ix3 b c o)
      = (∑ g : Fin 64, val_main_v61 (F := Ideal) a0 a1 a2 a3 a4 a5 (ix3 b c g) * a6 (ix2 o g)) + a7 (ix1 o) := by
  rw [val_main_v65_apply, val_main_v62_apply, val_main_v64_apply, val_main_v63_apply]
  have hs : ∀ g : Fin 64, val_main_v61 (F := Ideal) a0 a1 a2 a3 a4 a5 (lidx_main_v62 (ix3 b c o) g) * a6 (ridx_main_v62 (ix3 b c o) g)
      = val_main_v61 (F := Ideal) a0 a1 a2 a3 a4 a5 (ix3 b c g) * a6 (ix2 o g) := fun g => by
    rw [show lidx_main_v62 (ix3 b c o) g = ix3 b c g from funext fun ax => Fin.ext (by match ax with | ⟨0, _⟩ => rfl | ⟨1, _⟩ => rfl | ⟨2, _⟩ => rfl),
      show ridx_main_v62 (ix3 b c o) g = ix2 o g from funext fun ax => Fin.ext (by match ax with | ⟨0, _⟩ => rfl | ⟨1, _⟩ => rfl)]
  rw [Finset.sum_congr rfl (fun g _ => hs g)]
  have hb : idx_main_v63 (idx_main_v64 (ix3 b c o)) = ix1 o := funext fun ax => Fin.ext (by match ax with | ⟨0, _⟩ => rfl)
  rw [hb]
  rfl

/-! ## The reference computes the network -/

/-- Entry `(b, c, o)` of the reference's result is the network's output `o` on feature row `b` and table row `c`. -/
theorem reference_apply (b : Fin 256) (c : Fin 4096) (o : Fin 32) :
    val_main_v65 (F := Ideal) a0 a1 a2 a3 a4 a5 a6 a7 (ix3 b c o)
      = Spec.mlp (fun j => a0 (ix2 b j)) (fun i => val_main_v46 (F := Ideal) a1 (ix2 c i))
          (fun h j => a2 (ix2 h (⟨64 + j.val, by omega⟩ : Fin 128))) (fun h i => a2 (ix2 h (⟨i.val, by omega⟩ : Fin 128)))
          (fun h => a3 (ix1 h)) (fun g h => a4 (ix2 g h)) (fun g => a5 (ix1 g)) (fun o g => a6 (ix2 o g)) (fun o => a7 (ix1 o)) o := by
  rw [third_layer]
  unfold Spec.mlp
  refine congrArg (· + a7 (ix1 o)) (Finset.sum_congr rfl fun g _ => ?_)
  rw [second_layer]
  refine congrArg (fun z => max (z + a5 (ix1 g)) Spec.zeroWord * a6 (ix2 o g)) (Finset.sum_congr rfl fun h _ => ?_)
  rw [first_layer]

end Cert.ReferenceIdeal.RefValue

end
-- ==== Proof.Bridge.lean ====
/-
  The two programs' results are one function of the arguments.

  Entry `(b, c, o)` of the kernel program's result and of the reference's result are both the network's output `o` on
  feature row `b` and table row `c`, the table being the same composition of the region parameters on both sides.
-/
import proofs.«112589_j25271587570218_2_alg».proof.Proof.KernelValue
import proofs.«112589_j25271587570218_2_alg».proof.Proof.TableValue
import proofs.«112589_j25271587570218_2_alg».proof.Proof.RefValue

set_option maxRecDepth 16384

noncomputable section

namespace Cert.Bridge

open Idealize.ShloMosaic Idealize.ShloMosaic.TcCoe Idealize.SL.Sem Idealize.ShloMosaic.ValueIdx

/-- The reference's result term at the kernel program's arguments is the kernel program's result. -/
theorem result_eq (m : (ℓ : Loc Cert.KernelIdeal.nD Cert.KernelIdeal.τ Cert.KernelIdeal.sig) → Buf (Elt Ideal) ℓ) (c : Dev Cert.KernelIdeal.nD) :
    Cert.ReferenceIdeal.ReadP.val_main_v65 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Val.programResult m c := by
  refine funext fun (y : Cert.KernelIdeal.S256x4096x32.Idx) => ?_
  obtain ⟨b, cc, o, rfl⟩ : ∃ (b : Fin 256) (cc : Fin 4096) (o : Fin 32), y = ix3 b cc o := ⟨y 0, y 1, y 2, eq_ix3 y⟩
  rw [Cert.KernelIdeal.Val.programResult_apply]
  refine (Cert.ReferenceIdeal.RefValue.reference_apply _ _ _ _ _ _ _ _ b cc o).trans ?_
  exact Cert.Spec.mlp_congr _ (fun _ => rfl) (fun i => (Cert.KernelIdeal.Table.table_apply m c cc i).symm) (fun _ _ => rfl)
    (fun _ _ => rfl) (fun _ => rfl) (fun _ _ => rfl) (fun _ => rfl) (fun _ _ => rfl) (fun _ => rfl)

end Cert.Bridge

end
-- ==== Proof.lean ====
/-
  The certificate of a small perceptron applied to every (feature row, combination row) pair.

  The kernel program builds the 4096 × 64 table of combinations of region vectors on the host, cuts the first layer's
  weights into the half that meets a table row and the half that meets a feature row, and runs one pallas_call over a
  2 × 32 grid: at each point a 128-row tile of the features and a 128-row tile of the table go through the three layers
  for all 128 × 128 pairs, written as a 128 × 4096 block of a 256 × 131072 array that a final reshape reads as
  256 × 4096 × 32. The reference joins each table row with each feature row and applies the three layers to the joined
  row. Over the extended reals a change of float format is the identity, a matrix product from a zero accumulator is
  the plain sum, and a 128-term sum over a joined row is the sum over its two halves, so the two results are one
  function of the arguments, entry by entry; no finiteness of the inputs is used.

  Each program runs to the end, faults nowhere and leaves its arguments unchanged: for the two kernel programs by the
  frame run around the pallas_call (the body's one store covers its output block, the inputs are only loaded), for the
  reference by its straight-line run. The idealization rewrote nothing, so what it preserves is trivial.
-/
import proofs.«112589_j25271587570218_2_alg».proof.Defs
import proofs.«112589_j25271587570218_2_alg».proof.Proof.Gen.Kernel
import proofs.«112589_j25271587570218_2_alg».proof.Proof.Gen.KernelIdeal
import proofs.«112589_j25271587570218_2_alg».proof.Proof.Gen.ReferenceIdeal
import proofs.«112589_j25271587570218_2_alg».proof.Proof.Gen.Pre_finite_inputs
import proofs.«112589_j25271587570218_2_alg».proof.Proof.KernelRun
import proofs.«112589_j25271587570218_2_alg».proof.Proof.KernelIdealRun
import proofs.«112589_j25271587570218_2_alg».proof.Proof.KernelValue
import proofs.«112589_j25271587570218_2_alg».proof.Proof.ReferenceRun
import proofs.«112589_j25271587570218_2_alg».proof.Proof.ReferenceRead
import proofs.«112589_j25271587570218_2_alg».proof.Proof.Bridge
import Idealize.ShloMosaic.Adequacy
import Idealize.ShloMosaic.Init

noncomputable section

namespace Cert.Proof

open Idealize.ShloMosaic Idealize.SL.Sem

/-- The word-level kernel program runs to the end, faults nowhere and keeps its arguments. -/
theorem frame_kernel : Cert.frame_Kernel (hKernel := Cert.Kernel.Gen.facts) (hPre_finite_inputs := Cert.Pre_finite_inputs.Gen.facts) :=
  fun m ρ _ => Cert.Kernel.Fr.frame m ρ

/-- So does the idealized kernel program. -/
theorem frame_kernel_ideal : Cert.frame_KernelIdeal (hKernelIdeal := Cert.KernelIdeal.Gen.facts) (hPre_finite_inputs := Cert.Pre_finite_inputs.Gen.facts) :=
  fun m ρ _ => Cert.KernelIdeal.Fr.frame m ρ

/-- And the idealized reference: its straight-line run, the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments the two idealized programs end with equal results, entry by entry:
    both are the network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.programResult m c, Cert.KernelIdeal.Val.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v65_eq, h0, h1, h2, h3, h4, h5, h6, h7]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
